-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S2097152x3 : Shape := ⟨2, ![2097152, 3]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S67x64 : Shape := ⟨2, ![67, 64]⟩
abbrev S64x3 : Shape := ⟨2, ![64, 3]⟩
abbrev S3 : Shape := ⟨1, ![3]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S67x64 : S_.BroadcastsInDim S67x64 (![] : Fin 0 → Fin S67x64.rank)
  reducesTo_S67x64_S_d0_1 : S67x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S64x3 .f32) (main_arg15 : FVec F S3 .f32) (main_v63 : IVec S_ 1) (main_v67 : IVec S_ 1) : IVec S_ 1 :=
  let main_v68 : IVec S_ 1 := andi main_v63 main_v67
  let main_v69 : FVec F S64x3 .f32 := Host.absf main_arg14
  let main_cst_26 : FVec F S_ .f32 := constant S_ .f32 0x7F800000#32
  let main_v70 : FVec F S64x3 .f32 := broadcastInDim S64x3 ![] bcast_S_S64x3 main_cst_26
  let main_v71 : IVec S64x3 1 := cmpf .olt main_v69 main_v70
  let main_c_27 : IVec S_ 1 := constantI S_ 1 1#1
  let main_v72 : IVec S_ 1 := (fun x v => Host.reduce IntOp.andi x v reducesTo_S64x3_S_d0_1 h_S_) main_v71 main_c_27
  let main_v73 : IVec S_ 1 := andi main_v68 main_v72
  let main_v74 : FVec F S3 .f32 := Host.absf main_arg15
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg11 : FVec F S64 .f32) (main_arg12 : FVec F S64x64 .f32) (main_arg13 : FVec F S64 .f32) (main_arg14 : FVec F S64x3 .f32) (main_arg15 : FVec F S3 .f32) (main_v48 : IVec S_ 1) (main_v49 : FVec F S67x64 .f32) (main_v50 : FVec F S67x64 .f32) : IVec S_ 1 :=
  let main_v51 : IVec S67x64 1 := cmpf .olt main_v49 main_v50
  let main_c_19 : IVec S_ 1 := constantI S_ 1 1#1
  let main_v52 : IVec S_ 1 := (fun x v => Host.reduce IntOp.andi x v reducesTo_S67x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S1 .f32) (main_arg8 : FVec F S32x64 .f32) (main_arg9 : FVec F S64 .f32) (main_arg10 : FVec F S67x64 .f32) (main_arg11 : FVec F S64 .f32) (main_arg12 : FVec F S64x64 .f32) (main_arg13 : FVec F S64 .f32) (main_arg14 : FVec F S64x3 .f32) (main_arg15 : FVec F S3 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S67x64 .f32 := Host.absf main_arg10
  let main_cst_18 : FVec F S_ .f32 := constant S_ .f32 0x7F800000#32
  let main_v50 : FVec F S67x64 .f32 := broadcastInDim S67x64 ![] bcast_S_S67x64 main_cst_18
  fn_part3 (F := F) main_arg11 main_arg12 main_arg13 main_arg14 main_arg15 main_v48 main_v49 main_v50

def fn_part1 {F : FTy → Type} [FloatOps F] (main_arg4 : FVec F S64x64 .f32) (main_arg5 : FVec F S64 .f32) (main_arg6 : FVec F S64x1 .f32) (main_arg7 : FVec F S1 .f32) (main_arg8 : FVec F S32x64 .f32) (main_arg9 : FVec F S64 .f32) (main_arg10 : FVec F S67x64 .f32) (main_arg11 : FVec F S64 .f32) (main_arg12 : FVec F S64x64 .f32) (main_arg13 : FVec F S64 .f32) (main_arg14 : FVec F S64x3 .f32) (main_arg15 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2097152x32 .f32) (main_arg1 : FVec F S2097152x3 .f32) (main_arg2 : FVec F S32x64 .f32) (main_arg3 : FVec F S64 .f32) (main_arg4 : FVec F S64x64 .f32) (main_arg5 : FVec F S64 .f32) (main_arg6 : FVec F S64x1 .f32) (main_arg7 : FVec F S1 .f32) (main_arg8 : FVec F S32x64 .f32) (main_arg9 : FVec F S64 .f32) (main_arg10 : FVec F S67x64 .f32) (main_arg11 : FVec F S64 .f32) (main_arg12 : FVec F S64x64 .f32) (main_arg13 : FVec F S64 .f32) (main_arg14 : FVec F S64x3 .f32) (main_arg15 : FVec F S3 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2097152x32 : Shape := ⟨2, ![2097152, 32]⟩
abbrev S2097152x3 : Shape := ⟨2, ![2097152, 3]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S67x64 : Shape := ⟨2, ![67, 64]⟩
abbrev S64x3 : Shape := ⟨2, ![64, 3]⟩
abbrev S3 : Shape := ⟨1, ![3]⟩
abbrev S32x128 : Shape := ⟨2, ![32, 128]⟩
abbrev S128 : Shape := ⟨1, ![128]⟩
abbrev S3x64 : Shape := ⟨2, ![3, 64]⟩
abbrev S2097152x1 : Shape := ⟨2, ![2097152, 1]⟩
abbrev S2097152 : Shape := ⟨1, ![2097152]⟩
abbrev S16384x32 : Shape := ⟨2, ![16384, 32]⟩
abbrev S16384x3 : Shape := ⟨2, ![16384, 3]⟩
abbrev S16384x1 : Shape := ⟨2, ![16384, 1]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384 : Shape := ⟨1, ![16384]⟩
abbrev S1x1 : Shape := ⟨2, ![1, 1]⟩
abbrev S1x3 : Shape := ⟨2, ![1, 3]⟩

abbrev nBuf : Space → Nat
  | .hbm => 23
  | .vmem => 21
  | .smem => 0
  | _ => 0

abbrev bufTy : (tb : Table) → Fin (tcTables nBuf tb) → BufTy
  | .hbm, ⟨0, _⟩ => ⟨S2097152x32, .f32⟩
  | .hbm, ⟨1, _⟩ => ⟨S2097152x3, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S32x64, .f32⟩
  | .hbm, ⟨9, _⟩ => ⟨S64, .f32⟩
  | .hbm, ⟨10, _⟩ => ⟨S67x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x3, .f32⟩
  | .hbm, ⟨15, _⟩ => ⟨S3, .f32⟩
  | .hbm, ⟨16, _⟩ => ⟨S32x128, .f32⟩
  | .hbm, ⟨17, _⟩ => ⟨S128, .f32⟩
  | .hbm, ⟨18, _⟩ => ⟨S64x64, .f32⟩
  | .hbm, ⟨19, _⟩ => ⟨S3x64, .f32⟩
  | .hbm, ⟨20, _⟩ => ⟨S2097152x3, .f32⟩
  | .hbm, ⟨21, _⟩ => ⟨S2097152x1, .f32⟩
  | .hbm, ⟨22, _⟩ => ⟨S2097152, .f32⟩
  | .local _ .vmem, ⟨0, _⟩ => ⟨S16384x32, .f32⟩
  | .local _ .vmem, ⟨1, _⟩ => ⟨S16384x32, .f32⟩
  | .local _ .vmem, ⟨2, _⟩ => ⟨S16384x3, .f32⟩
  | .local _ .vmem, ⟨3, _⟩ => ⟨S16384x3, .f32⟩
  | .local _ .vmem, ⟨4, _⟩ => ⟨S32x128, .f32⟩
  | .local _ .vmem, ⟨5, _⟩ => ⟨S128, .f32⟩
  | .local _ .vmem, ⟨6, _⟩ => ⟨S64x64, .f32⟩
  | .local _ .vmem, ⟨7, _⟩ => ⟨S64, .f32⟩
  | .local _ .vmem, ⟨8, _⟩ => ⟨S64x1, .f32⟩
  | .local _ .vmem, ⟨9, _⟩ => ⟨S1, .f32⟩
  | .local _ .vmem, ⟨10, _⟩ => ⟨S64x64, .f32⟩
  | .local _ .vmem, ⟨11, _⟩ => ⟨S64, .f32⟩
  | .local _ .vmem, ⟨12, _⟩ => ⟨S3x64, .f32⟩
  | .local _ .vmem, ⟨13, _⟩ => ⟨S64x64, .f32⟩
  | .local _ .vmem, ⟨14, _⟩ => ⟨S64, .f32⟩
  | .local _ .vmem, ⟨15, _⟩ => ⟨S64x3, .f32⟩
  | .local _ .vmem, ⟨16, _⟩ => ⟨S3, .f32⟩
  | .local _ .vmem, ⟨17, _⟩ => ⟨S16384x3, .f32⟩
  | .local _ .vmem, ⟨18, _⟩ => ⟨S16384x3, .f32⟩
  | .local _ .vmem, ⟨19, _⟩ => ⟨S16384x1, .f32⟩
  | .local _ .vmem, ⟨20, _⟩ => ⟨S16384x1, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v0_0 : Ref sig .tc := ⟨.hbm, 20, rfl⟩
abbrev main_call0_v4_1 : Ref sig .tc := ⟨.hbm, 21, rfl⟩
abbrev main_v0_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S16384x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16384x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  concatenates_S32x64_S32x64_S32x128_d1 : Shape.Concatenates [S32x64, S32x64] S32x128 1
  concatenates_S64_S64_S128_d0 : Shape.Concatenates [S64, S64] S128 0
  slices_S67x64_S64x64_0_0 : S67x64.Slices ![0, 0] S64x64
  slices_S67x64_S3x64_64_0 : S67x64.Slices ![64, 0] S3x64
  shapeCasts_S2097152x1_S2097152 : S2097152x1.ShapeCasts S2097152
  inb_S16384x32_S16384x32_0_0 : ∀ a, (![0, 0] : Fin 2 → Nat) a + S16384x32.size a ≤ S16384x32.size a
  h_S16384x32 : 0 < S16384x32.numel
  inb_S16384x3_S16384x3_0_0 : ∀ a, (![0, 0] : Fin 2 → Nat) a + S16384x3.size a ≤ S16384x3.size a
  h_S16384x3 : 0 < S16384x3.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S16384x128 : S1x128.Broadcasts S16384x128
  slices_S16384x128_o0_0_S16384x64 : S16384x128.Slices ![0, 0] S16384x64
  slices_S16384x128_o0_64_S16384x64 : S16384x128.Slices ![0, 64] S16384x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S64x1_S64x1_0_0 : ∀ a, (![0, 0] : Fin 2 → Nat) a + S64x1.size a ≤ S64x1.size a
  h_S64x1 : 0 < S64x1.numel
  shapeCasts_S64x1_S64 : S64x1.ShapeCasts S64
  reduces_S16384x64_S16384 : S16384x64.Reduces [1] S16384
  shapeCasts_S16384_S16384x1 : S16384.ShapeCasts S16384x1
  inb_S1_S1_0 : ∀ a, (![0] : Fin 1 → Nat) a + S1.size a ≤ S1.size a
  h_S1 : 0 < S1.numel
  shapeCasts_S1_S1x1 : S1.ShapeCasts S1x1
  broadcasts_S1x1_S16384x1 : S1x1.Broadcasts S16384x1
  reduces_S16384x3_S16384 : S16384x3.Reduces [1] S16384
  broadcasts_S16384x1_S16384x3 : S16384x1.Broadcasts S16384x3
  inb_S3x64_S3x64_0_0 : ∀ a, (![0, 0] : Fin 2 → Nat) a + S3x64.size a ≤ S3x64.size a
  h_S3x64 : 0 < S3x64.numel
  shapeCasts_S3x64_S3x64 : S3x64.ShapeCasts S3x64
  slices_S16384x3_o0_0_S16384x1 : S16384x3.Slices ![0, 0] S16384x1
  slices_S3x64_o0_0_S1x64 : S3x64.Slices ![0, 0] S1x64
  shapeCasts_S1x64_S64 : S1x64.ShapeCasts S64
  broadcasts_S16384x1_S16384x64 : S16384x1.Broadcasts S16384x64
  slices_S16384x3_o0_1_S16384x1 : S16384x3.Slices ![0, 1] S16384x1
  slices_S3x64_o1_0_S1x64 : S3x64.Slices ![1, 0] S1x64
  slices_S16384x3_o0_2_S16384x1 : S16384x3.Slices ![0, 2] S16384x1
  slices_S3x64_o2_0_S1x64 : S3x64.Slices ![2, 0] S1x64
  shapeCasts_S64x64_S64x64 : S64x64.ShapeCasts S64x64
  inb_S64x3_S64x3_0_0 : ∀ a, (![0, 0] : Fin 2 → Nat) a + S64x3.size a ≤ S64x3.size a
  h_S64x3 : 0 < S64x3.numel
  slices_S64x3_o0_0_S64x1 : S64x3.Slices ![0, 0] S64x1
  slices_S64x3_o0_1_S64x1 : S64x3.Slices ![0, 1] S64x1
  slices_S64x3_o0_2_S64x1 : S64x3.Slices ![0, 2] S64x1
  concatenates_S16384x1_S16384x1_S16384x1_S16384x3_d1 : Shape.Concatenates [S16384x1, S16384x1, S16384x1] S16384x3 1
  inb_S3_S3_0 : ∀ a, (![0] : Fin 1 → Nat) a + S3.size a ≤ S3.size a
  h_S3 : 0 < S3.numel
  shapeCasts_S3_S1x3 : S3.ShapeCasts S1x3
  broadcasts_S1x3_S16384x3 : S1x3.Broadcasts S16384x3
  inb_S16384x1_S16384x1_0_0 : ∀ a, (![0, 0] : Fin 2 → Nat) a + S16384x1.size a ≤ S16384x1.size a
  h_S16384x1 : 0 < S16384x1.numel
  dot_S16384x32_S32x128_S16384x128_1_0_0_1_n_n_wf : DotDims.WF S16384x32 S32x128 S16384x128 [1] [0] [0] [1] [] []
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S2097152x32.size a
  hwx0_0 : ∀ i : grid0.Coords, EltTy.bits .f32 = 32 ∨ (Rect.block (s := S2097152x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x3.size a ≤ S2097152x3.size a
  hwx0_1 : ∀ i : grid0.Coords, EltTy.bits .f32 = 32 ∨ (Rect.block (s := S2097152x3) S16384x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64.size a ≤ S3x64.size a
  hwx0_10 : ∀ i : grid0.Coords, EltTy.bits .f32 = 32 ∨ (Rect.block (s := S3x64) S3x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x3.size a ≤ S64x3.size a
  hwx0_13 : ∀ i : grid0.Coords, EltTy.bits .f32 = 32 ∨ (Rect.block (s := S64x3) S64x3.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3.size a ≤ S3.size a
  hwx0_14 : ∀ i : grid0.Coords, EltTy.bits .f32 = 32 ∨ (Rect.block (s := S3) S3.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S16384x3.size a ≤ S2097152x3.size a
  hwx0_15 : ∀ i : grid0.Coords, EltTy.bits .f32 = 32 ∨ (Rect.block (s := S2097152x3) S16384x3.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S16384x1.size a ≤ S2097152x1.size a
  hwx0_16 : ∀ i : grid0.Coords, EltTy.bits .f32 = 32 ∨ (Rect.block (s := S2097152x1) S16384x1.size (cc0_transform_16 i) (hinb0_16 i)).WholeWords (EltTy.packing .f32)

variable [Facts₀]

def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v3) S3x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S64x3.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S3.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S16384x3.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_call0_v4_1) S16384x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S2097152x3 : Shape := ⟨2, ![2097152, 3]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S67x64 : Shape := ⟨2, ![67, 64]⟩
abbrev S64x3 : Shape := ⟨2, ![64, 3]⟩
abbrev S3 : Shape := ⟨1, ![3]⟩
abbrev S2097152x64 : Shape := ⟨2, ![2097152, 64]⟩
abbrev S1x64 : Shape := ⟨2, ![1, 64]⟩
abbrev S_ : Shape := ⟨0, ![]⟩
abbrev S2097152x1 : Shape := ⟨2, ![2097152, 1]⟩
abbrev S1x1 : Shape := ⟨2, ![1, 1]⟩
abbrev S2097152 : Shape := ⟨1, ![2097152]⟩
abbrev S2097152x67 : Shape := ⟨2, ![2097152, 67]⟩
abbrev S1x3 : Shape := ⟨2, ![1, 3]⟩

abbrev nBuf : Space → Nat
  | .hbm => 82
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S2097152x3, .f32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S32x64, .f32⟩
  | .hbm, ⟨9, _⟩ => ⟨S64, .f32⟩
  | .hbm, ⟨10, _⟩ => ⟨S67x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x3, .f32⟩
  | .hbm, ⟨15, _⟩ => ⟨S3, .f32⟩
  | .hbm, ⟨16, _⟩ => ⟨S2097152x64, .f32⟩
  | .hbm, ⟨17, _⟩ => ⟨S1x64, .f32⟩
  | .hbm, ⟨18, _⟩ => ⟨S2097152x64, .f32⟩
  | .hbm, ⟨19, _⟩ => ⟨S2097152x64, .f32⟩
  | .hbm, ⟨20, _⟩ => ⟨S_, .f32⟩
  | .hbm, ⟨21, _⟩ => ⟨S2097152x64, .f32⟩
  | .hbm, ⟨22, _⟩ => ⟨S2097152x64, .f32⟩
  | .hbm, ⟨23, _⟩ => ⟨S2097152x64, .f32⟩
  | .hbm, ⟨24, _⟩ => ⟨S1x64, .f32⟩
  | .hbm, ⟨25, _⟩ => ⟨S2097152x64, .f32⟩
  | .hbm, ⟨26, _⟩ => ⟨S2097152x64, .f32⟩
  | .hbm, ⟨27, _⟩ => ⟨S_, .f32⟩
  | .hbm, ⟨28, _⟩ => ⟨S2097152x64, .f32⟩
  | .hbm, ⟨29, _⟩ => ⟨S2097152x64, .f32⟩
  | .hbm, ⟨30, _⟩ => ⟨S2097152x1, .f32⟩
  | .hbm, ⟨31, _⟩ => ⟨S1x1, .f32⟩
  | .hbm, ⟨32, _⟩ => ⟨S2097152x1, .f32⟩
  | .hbm, ⟨33, _⟩ => ⟨S2097152x1, .f32⟩
  | .hbm, ⟨34, _⟩ => ⟨S_, .f32⟩
  | .hbm, ⟨35, _⟩ => ⟨S2097152x1, .f32⟩
  | .hbm, ⟨36, _⟩ => ⟨S2097152x1, .f32⟩
  | .hbm, ⟨37, _⟩ => ⟨S2097152x64, .f32⟩
  | .hbm, ⟨38, _⟩ => ⟨S1x64, .f32⟩
  | .hbm, ⟨39, _⟩ => ⟨S2097152x64, .f32⟩
  | .hbm, ⟨40, _⟩ => ⟨S2097152x64, .f32⟩
  | .hbm, ⟨41, _⟩ => ⟨S_, .f32⟩
  | .hbm, ⟨42, _⟩ => ⟨S2097152x64, .f32⟩
  | .hbm, ⟨43, _⟩ => ⟨S2097152x64, .f32⟩
  | .hbm, ⟨44, _⟩ => ⟨S2097152x3, .f32⟩
  | .hbm, ⟨45, _⟩ => ⟨S_, .f32⟩
  | .hbm, ⟨46, _⟩ => ⟨S2097152, .f32⟩
  | .hbm, ⟨47, _⟩ => ⟨S2097152x1, .f32⟩
  | .hbm, ⟨48, _⟩ => ⟨S2097152x1, .f32⟩
  | .hbm, ⟨49, _⟩ => ⟨S_, .f32⟩
  | .hbm, ⟨50, _⟩ => ⟨S2097152x1, .f32⟩
  | .hbm, ⟨51, _⟩ => ⟨S2097152x1, .f32⟩
  | .hbm, ⟨52, _⟩ => ⟨S2097152x3, .f32⟩
  | .hbm, ⟨53, _⟩ => ⟨S2097152x3, .f32⟩
  | .hbm, ⟨54, _⟩ => ⟨S2097152x67, .f32⟩
  | .hbm, ⟨55, _⟩ => ⟨S2097152x64, .f32⟩
  | .hbm, ⟨56, _⟩ => ⟨S1x64, .f32⟩
  | .hbm, ⟨57, _⟩ => ⟨S2097152x64, .f32⟩
  | .hbm, ⟨58, _⟩ => ⟨S2097152x64, .f32⟩
  | .hbm, ⟨59, _⟩ => ⟨S_, .f32⟩
  | .hbm, ⟨60, _⟩ => ⟨S2097152x64, .f32⟩
  | .hbm, ⟨61, _⟩ => ⟨S2097152x64, .f32⟩
  | .hbm, ⟨62, _⟩ => ⟨S2097152x64, .f32⟩
  | .hbm, ⟨63, _⟩ => ⟨S1x64, .f32⟩
  | .hbm, ⟨64, _⟩ => ⟨S2097152x64, .f32⟩
  | .hbm, ⟨65, _⟩ => ⟨S2097152x64, .f32⟩
  | .hbm, ⟨66, _⟩ => ⟨S_, .f32⟩
  | .hbm, ⟨67, _⟩ => ⟨S2097152x64, .f32⟩
  | .hbm, ⟨68, _⟩ => ⟨S2097152x64, .f32⟩
  | .hbm, ⟨69, _⟩ => ⟨S2097152x3, .f32⟩
  | .hbm, ⟨70, _⟩ => ⟨S1x3, .f32⟩
  | .hbm, ⟨71, _⟩ => ⟨S2097152x3, .f32⟩
  | .hbm, ⟨72, _⟩ => ⟨S2097152x3, .f32⟩
  | .hbm, ⟨73, _⟩ => ⟨S2097152x3, .f32⟩
  | .hbm, ⟨74, _⟩ => ⟨S2097152x3, .f32⟩
  | .hbm, ⟨75, _⟩ => ⟨S_, .f32⟩
  | .hbm, ⟨76, _⟩ => ⟨S2097152x3, .f32⟩
  | .hbm, ⟨77, _⟩ => ⟨S2097152x3, .f32⟩
  | .hbm, ⟨78, _⟩ => ⟨S_, .f32⟩
  | .hbm, ⟨79, _⟩ => ⟨S2097152x3, .f32⟩
  | .hbm, ⟨80, _⟩ => ⟨S2097152x3, .f32⟩
  | .hbm, ⟨81, _⟩ => ⟨S2097152, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call2_cst : Ref sig .tc := ⟨.hbm, 34, rfl⟩
abbrev main_call2_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call3_cst : Ref sig .tc := ⟨.hbm, 41, rfl⟩
abbrev main_call3_v0 : Ref sig .tc := ⟨.hbm, 42, rfl⟩
abbrev main_v19 : Ref sig .tc := ⟨.hbm, 43, rfl⟩
abbrev main_call4_v0 : Ref sig .tc := ⟨.hbm, 44, rfl⟩
abbrev main_call4_cst : Ref sig .tc := ⟨.hbm, 45, rfl⟩
abbrev main_call4_v1 : Ref sig .tc := ⟨.hbm, 46, rfl⟩
abbrev main_call4_v2 : Ref sig .tc := ⟨.hbm, 47, rfl⟩
abbrev main_v20 : Ref sig .tc := ⟨.hbm, 48, rfl⟩
abbrev main_cst : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call5_cst : Ref sig .tc := ⟨.hbm, 59, rfl⟩
abbrev main_call5_v0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call6_cst : Ref sig .tc := ⟨.hbm, 66, rfl⟩
abbrev main_call6_v0 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_0 : Ref sig .tc := ⟨.hbm, 75, rfl⟩
abbrev main_v42 : Ref sig .tc := ⟨.hbm, 76, rfl⟩
abbrev main_v43 : Ref sig .tc := ⟨.hbm, 77, rfl⟩
abbrev main_cst_1 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  bcast_S_S2097152x1 : S_.BroadcastsInDim S2097152x1 (![] : Fin 0 → Fin S2097152x1.rank)
  reducesTo_S2097152x3_S2097152_d1 : S2097152x3.ReducesTo [1] S2097152
  h_S_ : 0 < S_.numel
  bcast_S2097152_S2097152x1_0 : S2097152.BroadcastsInDim S2097152x1 (![0] : Fin 1 → Fin S2097152x1.rank)
  bcast_S2097152x1_S2097152x3_0_1 : S2097152x1.BroadcastsInDim S2097152x3 (![0, 1] : Fin 2 → Fin S2097152x3.rank)
  concatenates_S2097152x64_S2097152x3_S2097152x67_d1 : Shape.Concatenates [S2097152x64, S2097152x3] S2097152x67 1
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  shapeCasts_S2097152x1_S2097152 : S2097152x1.ShapeCasts S2097152
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x1_S2097152x1_1_0_0_1_n_n_wf : DotDims.WF S2097152x64 S64x1 S2097152x1 [1] [0] [0] [1] [] []
  dot_S2097152x67_S67x64_S2097152x64_1_0_0_1_n_n_wf : DotDims.WF S2097152x67 S67x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x1_S2097152x1_1_0_0_1_n_n : DotDims S2097152x64 S64x1 S2097152x1 where
  lhsContracting := [1]
  rhsContracting := [0]
  lhsNonContracting := [0]
  rhsNonContracting := [1]
  lhsBatch := []
  rhsBatch := []
  wf := dot_S2097152x64_S64x1_S2097152x1_1_0_0_1_n_n_wf
def dot_S2097152x67_S67x64_S2097152x64_1_0_0_1_n_n : DotDims S2097152x67 S67x64 S2097152x64 where
  lhsContracting := [1]
  rhsContracting := [0]
  lhsNonContracting := [0]
  rhsNonContracting := [1]
  lhsBatch := []
  rhsBatch := []
  wf := dot_S2097152x67_S67x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.RowModel.lean ====
/-
  The network both programs compute, one input row at a time, on the extended reals.

  An affine layer sends a vector x of K numbers to the N numbers  (sum over k of x k * W k q) + b q.  The rectifier
  replaces a number by the larger of it and zero.

  DENSITY of a row of 32 encoded coordinates: two rectified affine layers (32 -> 64 -> 64), a third affine layer with
  one output, and the rectifier once more.

  COLOUR of a row: the 32 coordinates go through one rectified affine layer to 64 features; the row's viewing
  direction (3 numbers) is divided by the larger of its Euclidean length and a small positive constant; the 64 features
  followed by the 3 direction numbers (67 numbers) go through two rectified affine layers (67 -> 64 -> 64) and a third
  affine layer with three outputs, and the logistic function of those three is the colour.

  The same network in a second arrangement:
  * the two first layers that read the encoded coordinates (the density's and the features') share one weight matrix
    with 128 columns and one bias of length 128, columns 0..63 the density's and columns 64..127 the features';
  * the 67-term sum of the colour net's first layer is taken as the sum over the 64 features, plus the bias, plus the
    three direction terms added one after another.
  The two arrangements agree (density_fused, colour_split). The only law of arithmetic used is that addition of extended
  reals is associative and commutative, which holds at the infinities too, so no entry needs to be finite.
-/
import Idealize.ShloMosaic.PureOps.Ideal
import Idealize.ShloMosaic.PureOps.Ideal.Laws

noncomputable section

namespace Cert.RowModel

open Idealize.ShloMosaic
open scoped BigOperators

/-- The rectifier: the larger of a number and the single-precision zero. -/
def relu (x : EReal) : EReal := max x (Ideal.ofBits .f32 0x00000000#32)

/-- Output q of an affine layer: x against column q of W, plus the bias at q. -/
def lin {K N : ℕ} (x : Fin K → EReal) (W : Fin K → Fin N → EReal) (b : Fin N → EReal) (q : Fin N) : EReal :=
  (∑ k : Fin K, x k * W k q) + b q

/-- A rectified affine layer. -/
def layer {K N : ℕ} (x : Fin K → EReal) (W : Fin K → Fin N → EReal) (b : Fin N → EReal) : Fin N → EReal :=
  fun q => relu (lin x W b q)

/-- Output q of an affine layer depends only on column q of the weights and entry q of the bias. -/
theorem lin_congr {K N N' : ℕ} (x : Fin K → EReal) (W : Fin K → Fin N → EReal) (b : Fin N → EReal)
    (W' : Fin K → Fin N' → EReal) (b' : Fin N' → EReal) (q : Fin N) (q' : Fin N')
    (hW : ∀ k, W k q = W' k q') (hb : b q = b' q') : lin x W b q = lin x W' b' q' := by
  unfold lin
  rw [hb]
  exact congrArg (· + b' q') (Finset.sum_congr rfl fun k _ => by rw [hW k])

/-- The density of a row. -/
def density (ep : Fin 32 → EReal) (dw0 : Fin 32 → Fin 64 → EReal) (db0 : Fin 64 → EReal)
    (dw1 : Fin 64 → Fin 64 → EReal) (db1 : Fin 64 → EReal) (dw2 : Fin 64 → Fin 1 → EReal) (db2 : Fin 1 → EReal) : EReal :=
  relu (lin (layer (layer ep dw0 db0) dw1 db1) dw2 db2 0)

/-- A direction divided by the larger of its Euclidean length and a small positive constant: the single-precision
    number nearest 1e-12, kept as its word since both programs use the same one. -/
def unitDir (vd : Fin 3 → EReal) : Fin 3 → EReal :=
  fun a => Ideal.div (vd a) (max (Ideal.sqrt (∑ k : Fin 3, vd k * vd k)) (Ideal.ofBits .f32 0x2B8CBCCC#32))

/-- 64 features followed by 3 direction numbers. -/
def joined (f : Fin 64 → EReal) (u : Fin 3 → EReal) : Fin 67 → EReal :=
  fun k => if h : k.val < 64 then f ⟨k.val, h⟩ else u ⟨k.val - 64, by have := k.isLt; omega⟩

/-- The colour of a row. -/
def colour (ep : Fin 32 → EReal) (vd : Fin 3 → EReal) (fw : Fin 32 → Fin 64 → EReal) (fb : Fin 64 → EReal)
    (cw0 : Fin 67 → Fin 64 → EReal) (cb0 : Fin 64 → EReal) (cw1 : Fin 64 → Fin 64 → EReal) (cb1 : Fin 64 → EReal)
    (cw2 : Fin 64 → Fin 3 → EReal) (cb2 : Fin 3 → EReal) : Fin 3 → EReal :=
  fun j => Ideal.logistic (lin (layer (layer (joined (layer ep fw fb) (unitDir vd)) cw0 cb0) cw1 cb1) cw2 cb2 j)

/-! ## The second arrangement -/

/-- Column q of the left half of a 128-column first layer, rectified. -/
def leftHalf (ep : Fin 32 → EReal) (W : Fin 32 → Fin 128 → EReal) (b : Fin 128 → EReal) : Fin 64 → EReal :=
  fun q => relu (lin ep W b ⟨q.val, by have := q.isLt; omega⟩)

/-- Column 64 + q of a 128-column first layer, rectified. -/
def rightHalf (ep : Fin 32 → EReal) (W : Fin 32 → Fin 128 → EReal) (b : Fin 128 → EReal) : Fin 64 → EReal :=
  fun q => relu (lin ep W b ⟨64 + q.val, by have := q.isLt; omega⟩)

/-- The density with its first layer read from the left half of the shared first layer. -/
def densityFused (ep : Fin 32 → EReal) (W : Fin 32 → Fin 128 → EReal) (b : Fin 128 → EReal)
    (dw1 : Fin 64 → Fin 64 → EReal) (db1 : Fin 64 → EReal) (dw2 : Fin 64 → Fin 1 → EReal) (db2 : Fin 1 → EReal) : EReal :=
  relu (lin (layer (leftHalf ep W b) dw1 db1) dw2 db2 0)

/-- The colour net's first layer as: the features' sum, plus the bias, plus the three direction terms in turn. -/
def firstSplit (f : Fin 64 → EReal) (u : Fin 3 → EReal) (Wf : Fin 64 → Fin 64 → EReal) (b : Fin 64 → EReal)
    (Wv : Fin 3 → Fin 64 → EReal) : Fin 64 → EReal :=
  fun q => relu (lin f Wf b q + ((u 0 * Wv 0 q + u 1 * Wv 1 q) + u 2 * Wv 2 q))

/-- The colour with the features read from the right half of the shared first layer and the first colour layer split. -/
def colourSplit (ep : Fin 32 → EReal) (vd : Fin 3 → EReal) (W : Fin 32 → Fin 128 → EReal) (b : Fin 128 → EReal)
    (Wf : Fin 64 → Fin 64 → EReal) (cb0 : Fin 64 → EReal) (Wv : Fin 3 → Fin 64 → EReal)
    (cw1 : Fin 64 → Fin 64 → EReal) (cb1 : Fin 64 → EReal) (cw2 : Fin 64 → Fin 3 → EReal) (cb2 : Fin 3 → EReal) :
    Fin 3 → EReal :=
  fun j => Ideal.logistic (lin (layer (firstSplit (rightHalf ep W b) (unitDir vd) Wf cb0 Wv) cw1 cb1) cw2 cb2 j)

/-! ## The two arrangements agree -/

/-- A sum over 67 indices is the sum over the first 64 plus the last three in turn. -/
theorem sum_67 (g : Fin 67 → EReal) :
    ∑ k : Fin 67, g k = (∑ k : Fin 64, g ⟨k.val, by have := k.isLt; omega⟩) + ((g 64 + g 65) + g 66) := by
  have h := Fin.sum_univ_add (a := 64) (b := 3) (fun i : Fin (64 + 3) => g ⟨i.val, i.isLt⟩)
  rw [Fin.sum_univ_three] at h
  exact h

/-- The 67-term first colour layer is the features' sum, plus the bias, plus the three direction terms. -/
theorem lin_joined (f : Fin 64 → EReal) (u : Fin 3 → EReal) (W : Fin 67 → Fin 64 → EReal) (b : Fin 64 → EReal) (q : Fin 64) :
    lin (joined f u) W b q
      = lin f (fun k q => W ⟨k.val, by have := k.isLt; omega⟩ q) b q + ((u 0 * W 64 q + u 1 * W 65 q) + u 2 * W 66 q) := by
  unfold lin
  rw [sum_67 (fun k => joined f u k * W k q), add_right_comm]
  have h64 : joined f u 64 = u 0 := by unfold joined; rw [dif_neg (by decide)]; rfl
  have h65 : joined f u 65 = u 1 := by unfold joined; rw [dif_neg (by decide)]; rfl
  have h66 : joined f u 66 = u 2 := by unfold joined; rw [dif_neg (by decide)]; rfl
  have hf : ∀ k : Fin 64, joined f u ⟨k.val, by have := k.isLt; omega⟩ = f k := fun k => by
    unfold joined; rw [dif_pos (show (⟨k.val, _⟩ : Fin 67).val < 64 from k.isLt)]
  simp only [h64, h65, h66, hf]

theorem density_fused (ep : Fin 32 → EReal) (W : Fin 32 → Fin 128 → EReal) (b : Fin 128 → EReal)
    (dw0 : Fin 32 → Fin 64 → EReal) (db0 : Fin 64 → EReal)
    (dw1 : Fin 64 → Fin 64 → EReal) (db1 : Fin 64 → EReal) (dw2 : Fin 64 → Fin 1 → EReal) (db2 : Fin 1 → EReal)
    (hW : ∀ (k : Fin 32) (q : Fin 64), W k ⟨q.val, by have := q.isLt; omega⟩ = dw0 k q)
    (hb : ∀ q : Fin 64, b ⟨q.val, by have := q.isLt; omega⟩ = db0 q) :
    densityFused ep W b dw1 db1 dw2 db2 = density ep dw0 db0 dw1 db1 dw2 db2 := by
  have h : leftHalf ep W b = layer ep dw0 db0 := funext fun q => by
    unfold leftHalf layer
    rw [lin_congr ep W b dw0 db0 _ q (fun k => hW k q) (hb q)]
  unfold densityFused density
  rw [h]

theorem colour_split (ep : Fin 32 → EReal) (vd : Fin 3 → EReal) (W : Fin 32 → Fin 128 → EReal) (b : Fin 128 → EReal)
    (Wf : Fin 64 → Fin 64 → EReal) (Wv : Fin 3 → Fin 64 → EReal)
    (fw : Fin 32 → Fin 64 → EReal) (fb : Fin 64 → EReal) (cw0 : Fin 67 → Fin 64 → EReal) (cb0 : Fin 64 → EReal)
    (cw1 : Fin 64 → Fin 64 → EReal) (cb1 : Fin 64 → EReal) (cw2 : Fin 64 → Fin 3 → EReal) (cb2 : Fin 3 → EReal)
    (hW : ∀ (k : Fin 32) (q : Fin 64), W k ⟨64 + q.val, by have := q.isLt; omega⟩ = fw k q)
    (hb : ∀ q : Fin 64, b ⟨64 + q.val, by have := q.isLt; omega⟩ = fb q)
    (hf : ∀ (k : Fin 64) (q : Fin 64), Wf k q = cw0 ⟨k.val, by have := k.isLt; omega⟩ q)
    (hv : ∀ (a : Fin 3) (q : Fin 64), Wv a q = cw0 ⟨64 + a.val, by have := a.isLt; omega⟩ q) :
    colourSplit ep vd W b Wf cb0 Wv cw1 cb1 cw2 cb2 = colour ep vd fw fb cw0 cb0 cw1 cb1 cw2 cb2 := by
  have h1 : rightHalf ep W b = layer ep fw fb := funext fun q => by
    unfold rightHalf layer
    rw [lin_congr ep W b fw fb _ q (fun k => hW k q) (hb q)]
  have h2 : firstSplit (layer ep fw fb) (unitDir vd) Wf cb0 Wv = layer (joined (layer ep fw fb) (unitDir vd)) cw0 cb0 :=
    funext fun q => by
      unfold firstSplit layer
      rw [lin_joined, hv 0 q, hv 1 q, hv 2 q]
      have hWf : Wf = fun k q => cw0 ⟨k.val, by have := k.isLt; omega⟩ q := funext fun k => funext fun q => hf k q
      rw [hWf]
      rfl
  unfold colourSplit colour
  rw [h1, h2]

end Cert.RowModel

end
-- ==== Proof.WholeArrays.lean ====
/-
  The two results as whole arrays, as functions of the sixteen argument arrays.

  Row r of the colour array is the colour of row r of the encoded coordinates and row r of the viewing directions; entry r
  of the density array is the density of row r of the encoded coordinates. The weights are read as matrices (entry
  (k, q)) and the biases as vectors (entry q). There are 2^21 = 2097152 rows.
-/
import Idealize.ShloMosaic.Lib.ValueIdx
import proofs.«177068_j11587821765175_2_alg».proof.Proof.RowModel

noncomputable section

namespace Cert.RowModel

open Idealize.ShloMosaic Idealize.ShloMosaic.ValueIdx

/-- Row r of a matrix. -/
abbrev rowOf {R K : ℕ} (x : (⟨2, ![R, K]⟩ : Shape).Idx → EReal) (r : Fin R) : Fin K → EReal := fun k => x (ix2 r k)
/-- A rank-2 array read as a matrix. -/
abbrev matOf {K N : ℕ} (x : (⟨2, ![K, N]⟩ : Shape).Idx → EReal) : Fin K → Fin N → EReal := fun k q => x (ix2 k q)
/-- A rank-1 array read as a vector. -/
abbrev vecOf {N : ℕ} (x : (⟨1, ![N]⟩ : Shape).Idx → EReal) : Fin N → EReal := fun q => x (ix1 q)

/-- The colour of every row: a [2097152, 3] array. -/
def colourArr (ep : (⟨2, ![2097152, 32]⟩ : Shape).Idx → EReal) (vd : (⟨2, ![2097152, 3]⟩ : Shape).Idx → EReal)
    (fw : (⟨2, ![32, 64]⟩ : Shape).Idx → EReal) (fb : (⟨1, ![64]⟩ : Shape).Idx → EReal)
    (cw0 : (⟨2, ![67, 64]⟩ : Shape).Idx → EReal) (cb0 : (⟨1, ![64]⟩ : Shape).Idx → EReal)
    (cw1 : (⟨2, ![64, 64]⟩ : Shape).Idx → EReal) (cb1 : (⟨1, ![64]⟩ : Shape).Idx → EReal)
    (cw2 : (⟨2, ![64, 3]⟩ : Shape).Idx → EReal) (cb2 : (⟨1, ![3]⟩ : Shape).Idx → EReal) :
    (⟨2, ![2097152, 3]⟩ : Shape).Idx → EReal :=
  fun i => colour (rowOf ep (i 0)) (rowOf vd (i 0)) (matOf fw) (vecOf fb) (matOf cw0) (vecOf cb0) (matOf cw1) (vecOf cb1)
    (matOf cw2) (vecOf cb2) (i 1)

/-- The density of every row: a [2097152] array. -/
def densityArr (ep : (⟨2, ![2097152, 32]⟩ : Shape).Idx → EReal)
    (dw0 : (⟨2, ![32, 64]⟩ : Shape).Idx → EReal) (db0 : (⟨1, ![64]⟩ : Shape).Idx → EReal)
    (dw1 : (⟨2, ![64, 64]⟩ : Shape).Idx → EReal) (db1 : (⟨1, ![64]⟩ : Shape).Idx → EReal)
    (dw2 : (⟨2, ![64, 1]⟩ : Shape).Idx → EReal) (db2 : (⟨1, ![1]⟩ : Shape).Idx → EReal) :
    (⟨1, ![2097152]⟩ : Shape).Idx → EReal :=
  fun i => density (rowOf ep (i 0)) (matOf dw0) (vecOf db0) (matOf dw1) (vecOf db1) (matOf dw2) (vecOf db2)

end Cert.RowModel

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.KernelProducts.lean ====
/-
  The kernel's two matrix products, read at an entry.

  Both contract the lanes of the left operand with the rows of the right one: the product of a [16384, 32] block with
  a [32, 128] matrix, and of a [16384, 64] block with a [64, 64] matrix. Into a zero accumulator, entry (p, q) of either
  is the sum over k of l(p, k) * r(k, q), whatever precision the product is asked for: on extended reals the product is
  exact. With the bias vector laid along the rows and added, entry (p, q) is output q of the affine layer applied to
  row p of the left operand.
-/
import proofs.«177068_j11587821765175_2_alg».proof.Proof.Gen.KernelIdeal
import proofs.«177068_j11587821765175_2_alg».proof.Proof.WholeArrays
import proofs.«177068_j11587821765175_2_alg».proof.Proof.LibMatmulRows
import proofs.«177068_j11587821765175_2_alg».proof.Proof.LibBiasRows
import Idealize.ShloMosaic.PureOps.Ideal.Laws
import Idealize.ShloMosaic.Lib.ValueIdx

noncomputable section

namespace Cert.KernelIdeal.Rows

open Cert.KernelIdeal Cert.RowModel Idealize.ShloMosaic Idealize.ShloMosaic.ValueIdx
open scoped BigOperators

/-! ## Where each product's operand indices sit -/

theorem wide_l0 (i : S16384x128.Idx) (s : dot_S16384x32_S32x128_S16384x128_1_0_0_1_n_n.contr.Idx) :
    (dot_S16384x32_S32x128_S16384x128_1_0_0_1_n_n.lhsIdx i s 0).val = (i 0).val := by
  unfold DotDims.lhsIdx
  rw [dif_neg (show ¬(0 : Fin S16384x32.rank) ∈ dot_S16384x32_S32x128_S16384x128_1_0_0_1_n_n.lhsBatch by decide),
    dif_pos (show (0 : Fin S16384x32.rank) ∈ dot_S16384x32_S32x128_S16384x128_1_0_0_1_n_n.lhsNonContracting by decide)]
  rfl
theorem wide_l1 (i : S16384x128.Idx) (s : dot_S16384x32_S32x128_S16384x128_1_0_0_1_n_n.contr.Idx) :
    (dot_S16384x32_S32x128_S16384x128_1_0_0_1_n_n.lhsIdx i s 1).val = (s ⟨0, by decide⟩).val :=
  dot_S16384x32_S32x128_S16384x128_1_0_0_1_n_n.lhsIdx_val_of_single rfl i s
theorem wide_r0 (i : S16384x128.Idx) (s : dot_S16384x32_S32x128_S16384x128_1_0_0_1_n_n.contr.Idx) :
    (dot_S16384x32_S32x128_S16384x128_1_0_0_1_n_n.rhsIdx i s 0).val = (s ⟨0, by decide⟩).val :=
  dot_S16384x32_S32x128_S16384x128_1_0_0_1_n_n.rhsIdx_val_of_single rfl i s
theorem wide_r1 (i : S16384x128.Idx) (s : dot_S16384x32_S32x128_S16384x128_1_0_0_1_n_n.contr.Idx) :
    (dot_S16384x32_S32x128_S16384x128_1_0_0_1_n_n.rhsIdx i s 1).val = (i 1).val := by
  unfold DotDims.rhsIdx
  rw [dif_neg (show ¬(1 : Fin S32x128.rank) ∈ dot_S16384x32_S32x128_S16384x128_1_0_0_1_n_n.rhsBatch by decide),
    dif_pos (show (1 : Fin S32x128.rank) ∈ dot_S16384x32_S32x128_S16384x128_1_0_0_1_n_n.rhsNonContracting by decide)]
  rfl

theorem square_l0 (i : S16384x64.Idx) (s : dot_S16384x64_S64x64_S16384x64_1_0_0_1_n_n.contr.Idx) :
    (dot_S16384x64_S64x64_S16384x64_1_0_0_1_n_n.lhsIdx i s 0).val = (i 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl
theorem square_l1 (i : S16384x64.Idx) (s : dot_S16384x64_S64x64_S16384x64_1_0_0_1_n_n.contr.Idx) :
    (dot_S16384x64_S64x64_S16384x64_1_0_0_1_n_n.lhsIdx i s 1).val = (s ⟨0, by decide⟩).val :=
  dot_S16384x64_S64x64_S16384x64_1_0_0_1_n_n.lhsIdx_val_of_single rfl i s
theorem square_r0 (i : S16384x64.Idx) (s : dot_S16384x64_S64x64_S16384x64_1_0_0_1_n_n.contr.Idx) :
    (dot_S16384x64_S64x64_S16384x64_1_0_0_1_n_n.rhsIdx i s 0).val = (s ⟨0, by decide⟩).val :=
  dot_S16384x64_S64x64_S16384x64_1_0_0_1_n_n.rhsIdx_val_of_single rfl i s
theorem square_r1 (i : S16384x64.Idx) (s : dot_S16384x64_S64x64_S16384x64_1_0_0_1_n_n.contr.Idx) :
    (dot_S16384x64_S64x64_S16384x64_1_0_0_1_n_n.rhsIdx i s 1).val = (i 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl

/-! ## The products at an entry -/

/-- The [16384, 32] x [32, 128] product into zero at (p, q). -/
theorem wide_product_at (prec : Option ContractPrecision) (l : FVec Ideal S16384x32 .f32) (r : FVec Ideal S32x128 .f32)
    (p : Fin 16384) (q : Fin 128) :
    matmul dot_S16384x32_S32x128_S16384x128_1_0_0_1_n_n prec l r (constant (F := Ideal) S16384x128 .f32 0x00000000#32) (ix2 p q)
      = ∑ k : Fin 32, l (ix2 p k) * r (ix2 k q) :=
  (Ideal.matmul_constant_zero_apply dot_S16384x32_S32x128_S16384x128_1_0_0_1_n_n prec l r (ix2 p q)).trans
    (Cert.LibMatmulRows.contraction_rows dot_S16384x32_S32x128_S16384x128_1_0_0_1_n_n rfl rfl wide_l0 wide_l1 wide_r0 wide_r1 l r p q)

/-- The [16384, 64] x [64, 64] product into zero at (p, q). -/
theorem square_product_at (prec : Option ContractPrecision) (l : FVec Ideal S16384x64 .f32) (r : FVec Ideal S64x64 .f32)
    (p : Fin 16384) (q : Fin 64) :
    matmul dot_S16384x64_S64x64_S16384x64_1_0_0_1_n_n prec l r (constant (F := Ideal) S16384x64 .f32 0x00000000#32) (ix2 p q)
      = ∑ k : Fin 64, l (ix2 p k) * r (ix2 k q) :=
  (Ideal.matmul_constant_zero_apply dot_S16384x64_S64x64_S16384x64_1_0_0_1_n_n prec l r (ix2 p q)).trans
    (Cert.LibMatmulRows.contraction_rows dot_S16384x64_S64x64_S16384x64_1_0_0_1_n_n rfl rfl square_l0 square_l1 square_r0 square_r1 l r p q)

/-! ## Product plus bias: the affine layer of a row -/

/-- The wide product plus its 128 biases laid along the rows, at (p, q): output q of the affine layer of row p. -/
theorem wide_affine_at (prec : Option ContractPrecision) (l : FVec Ideal S16384x32 .f32) (W : FVec Ideal S32x128 .f32)
    (b : FVec Ideal S128 .f32) (hc : S128.ShapeCasts S1x128) (hb : S1x128.Broadcasts S16384x128) (p : Fin 16384) (q : Fin 128) :
    addf (matmul dot_S16384x32_S32x128_S16384x128_1_0_0_1_n_n prec l W (constant (F := Ideal) S16384x128 .f32 0x00000000#32))
      (broadcastTo S16384x128 (shapeCast S1x128 b hc) hb) (ix2 p q) = lin (rowOf l p) (matOf W) (vecOf b) q := by
  show matmul dot_S16384x32_S32x128_S16384x128_1_0_0_1_n_n prec l W (constant (F := Ideal) S16384x128 .f32 0x00000000#32) (ix2 p q)
      + broadcastTo S16384x128 (shapeCast S1x128 b hc) hb (ix2 p q) = _
  rw [wide_product_at, Cert.LibBiasRows.bias_rows b hc hb p q]
  rfl

/-- The square product plus its 64 biases laid along the rows, at (p, q): output q of the affine layer of row p. -/
theorem square_affine_at (prec : Option ContractPrecision) (l : FVec Ideal S16384x64 .f32) (W : FVec Ideal S64x64 .f32)
    (b : FVec Ideal S64 .f32) (hc : S64.ShapeCasts S1x64) (hb : S1x64.Broadcasts S16384x64) (p : Fin 16384) (q : Fin 64) :
    addf (matmul dot_S16384x64_S64x64_S16384x64_1_0_0_1_n_n prec l W (constant (F := Ideal) S16384x64 .f32 0x00000000#32))
      (broadcastTo S16384x64 (shapeCast S1x64 b hc) hb) (ix2 p q) = lin (rowOf l p) (matOf W) (vecOf b) q := by
  show matmul dot_S16384x64_S64x64_S16384x64_1_0_0_1_n_n prec l W (constant (F := Ideal) S16384x64 .f32 0x00000000#32) (ix2 p q)
      + broadcastTo S16384x64 (shapeCast S1x64 b hc) hb (ix2 p q) = _
  rw [square_product_at, Cert.LibBiasRows.bias_rows b hc hb p q]
  rfl

end Cert.KernelIdeal.Rows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibColumnPieces.lean ====
/-
  GENERAL LEMMAS on matrices assembled from column blocks. Nothing here mentions a program.

  * concat_cols_slice: a matrix [R, Nout] is the concatenation, along the columns, of a list of pieces; piece n is
    a slice (any offsets) of width w of a matrix y [R', Nin], and the pieces before it have total width pre. Then the
    concatenation at (r, pre + c), c < w, is y at (off 0 + r, off 1 + c).
  * slice2_apply: a slice of a matrix read at an index is the matrix at the index shifted by the offsets.
-/
import Idealize.ShloMosaic.Lib.Pipeline.Value
import Idealize.ShloMosaic.Lib.ValueIdx

noncomputable section

namespace Cert.LibColumnPieces

open Idealize.ShloMosaic Idealize.ShloMosaic.ValueIdx

/-- The concatenation along the columns, read inside piece n, when that piece is a slice of y. -/
theorem concat_cols_slice {α : Type} {R R' Nin Nout w : ℕ}
    (xs : List ((s : Shape) × (s.Idx → α)))
    (h : Shape.Concatenates (xs.map (·.1)) ⟨2, ![R, Nout]⟩ 1)
    (y : (⟨2, ![R', Nin]⟩ : Shape).Idx → α) (n : ℕ) (hn : n < xs.length) (off : Fin 2 → ℕ)
    (hs : (⟨2, ![R', Nin]⟩ : Shape).Slices off ⟨2, ![R, w]⟩)
    (hx : xs[n] = ⟨⟨2, ![R, w]⟩, extractStridedSlice ⟨2, ![R, w]⟩ off y hs⟩)
    (pre : ℕ)
    (hpre : (((xs.take n).map (·.1)).map fun s =>
      if h : s.rank = (⟨2, ![R, Nout]⟩ : Shape).rank then s.size ((1 : Fin (⟨2, ![R, Nout]⟩ : Shape).rank).cast h.symm) else 0).sum = pre)
    (r : Fin R) (k : Fin Nout) (c : ℕ) (hc : c < w) (hk : k.val = pre + c)
    (i : (⟨2, ![R', Nin]⟩ : Shape).Idx) (hi0 : (i 0).val = off 0 + r.val) (hi1 : (i 1).val = off 1 + c) :
    concatenate ⟨2, ![R, Nout]⟩ 1 xs h (ix2 r k) = y i := by
  refine (concatenate_apply_piece (1 : Fin (⟨2, ![R, Nout]⟩ : Shape).rank) xs h (ix2 r k) n hn ⟨2, ![R, w]⟩ _ hx rfl pre hpre
    (ix2 r ⟨c, hc⟩) ?_ ?_).trans ?_
  · intro b hb
    match b with
    | ⟨0, _⟩ => rfl
    | ⟨1, _⟩ => exact absurd rfl hb
  · show pre + c = k.val
    omega
  · refine extractStridedSlice_apply off y hs (ix2 r ⟨c, hc⟩) i ?_
    intro a
    match a with
    | ⟨0, _⟩ => exact hi0
    | ⟨1, _⟩ => exact hi1

/-- A slice of a matrix, read at j: the matrix at any index k whose coordinates are j's shifted by the offsets. -/
theorem slice2_apply {α : Type} {R N R' N' : ℕ} (off : Fin 2 → ℕ) (x : (⟨2, ![R, N]⟩ : Shape).Idx → α)
    (h : (⟨2, ![R, N]⟩ : Shape).Slices off ⟨2, ![R', N']⟩) (j : (⟨2, ![R', N']⟩ : Shape).Idx)
    (k : (⟨2, ![R, N]⟩ : Shape).Idx) (h0 : (k 0).val = off 0 + (j 0).val) (h1 : (k 1).val = off 1 + (j 1).val) :
    extractStridedSlice ⟨2, ![R', N']⟩ off x h j = x k := by
  refine extractStridedSlice_apply off x h j k ?_
  intro a
  match a with
  | ⟨0, _⟩ => exact h0
  | ⟨1, _⟩ => exact h1

end Cert.LibColumnPieces

end
-- ==== Proof.KernelDensity.lean ====
/-
  The density the kernel leaves for a block of 16384 rows, read at a row.

  The first layer is computed once for both nets, 128 columns wide; the density net takes columns 0..63 and the
  features take columns 64..127, each rectified. The density net's second layer is a product with a [64, 64] matrix plus
  a bias, rectified. Its third layer has a single output, and the kernel takes it without the matrix unit: every row is
  multiplied entry by entry with the weight column laid along the rows, the 64 products of a row are added, and the one
  bias is added: that is the sum over k of h(p, k) * w(k, 0), plus b(0), the affine layer with one output. Rectified once
  more it is the row's density.
-/
import proofs.«177068_j11587821765175_2_alg».proof.Proof.Gen.KernelIdeal.Skeleton
import proofs.«177068_j11587821765175_2_alg».proof.Proof.KernelProducts
import proofs.«177068_j11587821765175_2_alg».proof.Proof.LibLayout
import proofs.«177068_j11587821765175_2_alg».proof.Proof.LibColumnPieces
import Idealize.ShloMosaic.Lib.Pipeline.Value
import Idealize.ShloMosaic.Lib.ValueLayout

noncomputable section

namespace Cert.KernelIdeal.Rows

open Cert.KernelIdeal Cert.KernelIdeal.Gen Cert.RowModel Idealize.ShloMosaic Idealize.ShloMosaic.ValueIdx
open scoped BigOperators

/-! ## Pieces of a block -/

/-- Columns 0..63 of a [16384, 128] block, rectified against z, at (p, q): the block at (p, q). -/
theorem left_cols_at (Y : FVec Ideal S16384x128 .f32) (hs : S16384x128.Slices ![0, 0] S16384x64) (z : Ideal .f32)
    (p : Fin 16384) (q : Fin 64) :
    maximumf (extractStridedSlice S16384x64 ![0, 0] Y hs) (broadcast S16384x64 z) (ix2 p q)
      = max (Y (ix2 p ⟨q.val, by have := q.isLt; omega⟩)) z :=
  congrArg (fun x => max x z)
    (Cert.LibColumnPieces.slice2_apply ![0, 0] Y hs (ix2 p q) (ix2 p ⟨q.val, by have := q.isLt; omega⟩)
      (Nat.zero_add _).symm (Nat.zero_add _).symm)

/-- Columns 64..127 of a [16384, 128] block, rectified against z, at (p, q): the block at (p, 64 + q). -/
theorem right_cols_at (Y : FVec Ideal S16384x128 .f32) (hs : S16384x128.Slices ![0, 64] S16384x64) (z : Ideal .f32)
    (p : Fin 16384) (q : Fin 64) :
    maximumf (extractStridedSlice S16384x64 ![0, 64] Y hs) (broadcast S16384x64 z) (ix2 p q)
      = max (Y (ix2 p ⟨64 + q.val, by have := q.isLt; omega⟩)) z :=
  congrArg (fun x => max x z)
    (Cert.LibColumnPieces.slice2_apply ![0, 64] Y hs (ix2 p q) (ix2 p ⟨64 + q.val, by have := q.isLt; omega⟩)
      (Nat.zero_add _).symm rfl)

/-- A column [a, 1] listed as a vector [a] reads, at i, the column's entry of row i. -/
theorem col_as_vec_at {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Each row of a [16384, 64] block multiplied entry by entry with a weight column laid along the rows, the row's 64
    products added, the sums kept as a column: at (p, u) the sum over k of H(p, k) * w(k, 0). -/
theorem column_at (H : FVec Ideal S16384x64 .f32) (w : FVec Ideal S64x1 .f32)
    (h1 : S64x1.ShapeCasts S64) (h2 : S64.ShapeCasts S1x64) (h3 : S1x64.Broadcasts S16384x64)
    (hr : Shape.Reduces S16384x64 [1] S16384) (hφ : FKind.Formats .f32)
    (hacc : (0x00000000#32 : BitVec 32) = 0x00000000#32) (h4 : S16384.ShapeCasts S16384x1)
    (p : Fin 16384) (u : Fin 1) :
    shapeCast S16384x1 (multiReduction .add [1] S16384
        (mulf H (broadcastTo S16384x64 (shapeCast S1x64 (shapeCast S64 w h1) h2) h3)) 0x00000000#32 hr hφ hacc) h4 (ix2 p u)
      = ∑ k : Fin 64, H (ix2 p k) * w (ix2 k (0 : Fin 1)) := by
  refine (Cert.LibLayout.shapeCast_a_a1_apply _ h4 p u).trans ?_
  refine (Cert.LibLayout.laneSum_apply _ hr hφ hacc p).trans (Finset.sum_congr rfl fun k _ => ?_)
  show H (ix2 p k) * broadcastTo S16384x64 (shapeCast S1x64 (shapeCast S64 w h1) h2) h3 (ix2 p k) = _
  rw [Cert.LibBiasRows.bias_rows (shapeCast S64 w h1) h2 h3 p k, col_as_vec_at w h1 k]

/-! ## The first layer, both halves -/

/-- The 128-column first layer of a block at (p, q): output q of the affine layer of row p. -/
theorem first_layer_at (v0 : FVec Ideal S16384x32 .f32) (v2 : FVec Ideal S32x128 .f32) (v5 : FVec Ideal S128 .f32)
    (p : Fin 16384) (q : Fin 128) :
    k0_pay2 (F := Ideal) v0 v2 v5 (ix2 p q) = lin (rowOf v0 p) (matOf v2) (vecOf v5) q := by
  unfold k0_pay2
  rw [shapeCast_self v2, shapeCast_self v5]
  exact wide_affine_at _ v0 v2 v5 _ _ p q

/-- The features of a block at (p, q): column 64 + q of the first layer, rectified. -/
theorem features_at (v0 : FVec Ideal S16384x32 .f32) (v2 : FVec Ideal S32x128 .f32) (v5 : FVec Ideal S128 .f32)
    (p : Fin 16384) (q : Fin 64) :
    k0_pay3 (F := Ideal) v0 v2 v5 (ix2 p q) = rightHalf (rowOf v0 p) (matOf v2) (vecOf v5) q := by
  unfold k0_pay3
  refine (right_cols_at (k0_pay2 (F := Ideal) v0 v2 v5) _ _ p q).trans ?_
  rw [first_layer_at]
  rfl

/-! ## The density -/

/-- What the kernel leaves for the density output at row p of a block. -/
theorem density_at (v0 : FVec Ideal S16384x32 .f32) (v2 : FVec Ideal S32x128 .f32) (v5 : FVec Ideal S128 .f32)
    (v16 : FVec Ideal S64x64 .f32) (v18 : FVec Ideal S64 .f32) (v24 : FVec Ideal S64x1 .f32) (v31 : FVec Ideal S1 .f32)
    (p : Fin 16384) :
    k0_pay4 (F := Ideal) v0 v2 v5 v16 v18 v24 v31 (ix2 p (0 : Fin 1))
      = densityFused (rowOf v0 p) (matOf v2) (vecOf v5) (matOf v16) (vecOf v18) (matOf v24) (vecOf v31) := by
  unfold k0_pay4
  dsimp only
  -- the rectified sum of the weighted second-layer row and the bias
  show max (shapeCast S16384x1 _ _ (ix2 p (0 : Fin 1)) + broadcastTo S16384x1 (shapeCast S1x1 v31 _) _ (ix2 p (0 : Fin 1))) _ = _
  rw [column_at, Cert.LibBiasRows.bias_rows v31 _ _ p (0 : Fin 1)]
  -- the second layer's rows
  have h2 : ∀ k : Fin 64,
      maximumf (addf (matmul dot_S16384x64_S64x64_S16384x64_1_0_0_1_n_n (some .fp32)
          (maximumf (extractStridedSlice S16384x64 ![0, 0] (k0_pay2 (F := Ideal) v0 v2 v5) slices_S16384x128_o0_0_S16384x64)
            (broadcast S16384x64 (Scalar.ofBits (F := Ideal) .f32 0x00000000#32))) v16
          (constant (F := Ideal) S16384x64 .f32 0x00000000#32))
        (broadcastTo S16384x64 (shapeCast S1x64 v18 shapeCasts_S64_S1x64) broadcasts_S1x64_S16384x64))
        (broadcast S16384x64 (Scalar.ofBits (F := Ideal) .f32 0x00000000#32)) (ix2 p k)
      = layer (leftHalf (rowOf v0 p) (matOf v2) (vecOf v5)) (matOf v16) (vecOf v18) k := fun k => by
    refine (congrArg (fun x => max x _) (square_affine_at _ _ v16 v18 _ _ p k)).trans ?_
    have hrow : rowOf (maximumf (extractStridedSlice S16384x64 ![0, 0] (k0_pay2 (F := Ideal) v0 v2 v5) slices_S16384x128_o0_0_S16384x64)
        (broadcast S16384x64 (Scalar.ofBits (F := Ideal) .f32 0x00000000#32))) p = leftHalf (rowOf v0 p) (matOf v2) (vecOf v5) :=
      funext fun j => by
        refine (left_cols_at (k0_pay2 (F := Ideal) v0 v2 v5) _ _ p j).trans ?_
        rw [first_layer_at]
        rfl
    rw [hrow]
    rfl
  simp only [h2]
  rfl

end Cert.KernelIdeal.Rows

end
-- ==== Proof.KernelColour.lean ====
/-
  The colour the kernel leaves for a block of 16384 rows, read at a row.

  THE DIRECTION. The squares of a row's three direction numbers are added, the square root taken, the larger of it and
  the small constant kept as a one-entry column, laid back over the three lanes, and the direction divided by it: the
  row's unit direction.

  THE FIRST COLOUR LAYER. The kernel never forms the 67-wide row of features and direction. It multiplies the 64
  features with the first 64 rows of the weights, adds the bias, and then adds, for each of the three direction
  numbers in turn, that number (a column laid over the 64 lanes) times the matching one of the last three weight rows
  (a row laid over the 16384 rows). The result is rectified.

  THE REST. A square layer with bias; then, rectified, it meets each of the three weight columns by a multiplication
  entry by entry and a sum over the 64 lanes, giving three one-entry columns set side by side; the three biases are
  added and the logistic function applied.
-/
import proofs.«177068_j11587821765175_2_alg».proof.Proof.Gen.KernelIdeal.Skeleton
import proofs.«177068_j11587821765175_2_alg».proof.Proof.KernelDensity
import Idealize.ShloMosaic.Lib.Pipeline.Value
import Idealize.ShloMosaic.Lib.ValueLayout

noncomputable section

namespace Cert.KernelIdeal.Rows

open Cert.KernelIdeal Cert.KernelIdeal.Gen Cert.RowModel Idealize.ShloMosaic Idealize.ShloMosaic.ValueIdx
open scoped BigOperators

/-- A square root of a block at an index is the square root of the entry. -/
theorem sqrt_at {s : Shape} (x : FVec Ideal s .f32) (i : s.Idx) : sqrt x i = Ideal.sqrt (x i) := rfl
/-- The logistic function of a block at an index is the logistic function of the entry. -/
theorem logistic_at {s : Shape} (x : FVec Ideal s .f32) (i : s.Idx) : logistic x i = Ideal.logistic (x i) := rfl

/-! ## The direction -/

/-- The sum over the three lanes of a [16384, 3] block, kept as a column, at (p, u). -/
theorem lanes3_at (X : FVec Ideal S16384x3 .f32) (hr : Shape.Reduces S16384x3 [1] S16384) (hφ : FKind.Formats .f32)
    (hacc : (0x00000000#32 : BitVec 32) = 0x00000000#32) (h4 : S16384.ShapeCasts S16384x1) (p : Fin 16384) (u : Fin 1) :
    shapeCast S16384x1 (multiReduction .add [1] S16384 X 0x00000000#32 hr hφ hacc) h4 (ix2 p u) = ∑ k : Fin 3, X (ix2 p k) :=
  (Cert.LibLayout.shapeCast_a_a1_apply _ h4 p u).trans (Cert.LibLayout.laneSum_apply X hr hφ hacc p)

/-- A row's direction divided by the larger of its length and z. -/
theorem unit_dir_at (v1 : FVec Ideal S16384x3 .f32) (hr : Shape.Reduces S16384x3 [1] S16384) (hφ : FKind.Formats .f32)
    (hacc : (0x00000000#32 : BitVec 32) = 0x00000000#32) (h4 : S16384.ShapeCasts S16384x1) (z : Ideal .f32)
    (hb : S16384x1.Broadcasts S16384x3) (p : Fin 16384) (a : Fin 3) :
    divf v1 (broadcastTo S16384x3 (maximumf (sqrt (shapeCast S16384x1
        (multiReduction .add [1] S16384 (k0_pay5 (F := Ideal) v1) 0x00000000#32 hr hφ hacc) h4)) (broadcast S16384x1 z)) hb) (ix2 p a)
      = Ideal.div (v1 (ix2 p a)) (max (Ideal.sqrt (∑ k : Fin 3, v1 (ix2 p k) * v1 (ix2 p k))) z) := by
  refine (divf_apply v1 _ (ix2 p a)).trans (congrArg (Ideal.div (v1 (ix2 p a))) ?_)
  refine (Cert.LibLayout.broadcastTo_a1_ab_apply _ hb p a).trans ?_
  refine (maximumf_apply _ _ (ix2 p (0 : Fin 1))).trans (congrArg (fun x => max x z) ?_)
  refine (sqrt_at _ (ix2 p (0 : Fin 1))).trans (congrArg Ideal.sqrt ?_)
  exact lanes3_at (k0_pay5 (F := Ideal) v1) hr hφ hacc h4 p 0

/-- Lane o of a [16384, 3] block, as a column laid over 64 lanes, at (p, q): the block at (p, o). -/
theorem dir_col_at (D : FVec Ideal S16384x3 .f32) (o : ℕ) (ho : o < 3) (hs : S16384x3.Slices ![0, o] S16384x1)
    (hb : S16384x1.Broadcasts S16384x64) (p : Fin 16384) (q : Fin 64) :
    broadcastTo S16384x64 (extractStridedSlice S16384x1 ![0, o] D hs) hb (ix2 p q) = D (ix2 p ⟨o, ho⟩) :=
  (Cert.LibLayout.broadcastTo_a1_ab_apply _ hb p q).trans
    (Cert.LibColumnPieces.slice2_apply ![0, o] D hs (ix2 p (0 : Fin 1)) (ix2 p ⟨o, ho⟩) (Nat.zero_add _).symm rfl)

/-- Row o of a [3, 64] matrix, laid over 16384 rows, at (p, q): the matrix at (o, q). -/
theorem weight_row_at (Wv : FVec Ideal S3x64 .f32) (o : ℕ) (ho : o < 3) (hs : S3x64.Slices ![o, 0] S1x64)
    (hc1 : S1x64.ShapeCasts S64) (hc2 : S64.ShapeCasts S1x64) (hb : S1x64.Broadcasts S16384x64) (p : Fin 16384) (q : Fin 64) :
    broadcastTo S16384x64 (shapeCast S1x64 (shapeCast S64 (extractStridedSlice S1x64 ![o, 0] Wv hs) hc1) hc2) hb (ix2 p q)
      = Wv (ix2 ⟨o, ho⟩ q) :=
  (Cert.LibBiasRows.bias_rows _ hc2 hb p q).trans
    ((shapeCast_1a_a_apply _ hc1 q).trans
      (Cert.LibColumnPieces.slice2_apply ![o, 0] Wv hs (ix2 (0 : Fin 1) q) (ix2 ⟨o, ho⟩ q) rfl (Nat.zero_add _).symm))

/-! ## The colour net up to its last hidden layer -/

/-- The last hidden layer, before its rectifier, at (p, q). -/
theorem hidden_colour_at (v1 : FVec Ideal S16384x3 .f32) (v15 : FVec Ideal S16384x64 .f32) (v45 : FVec Ideal S3x64 .f32)
    (v70 : FVec Ideal S64x64 .f32) (v73 : FVec Ideal S64 .f32) (v80 : FVec Ideal S64x64 .f32) (v82 : FVec Ideal S64 .f32)
    (p : Fin 16384) (q : Fin 64) :
    k0_pay6 (F := Ideal) v1 v15 (k0_pay5 (F := Ideal) v1) v45 v70 v73 v80 v82 (ix2 p q)
      = lin (firstSplit (rowOf v15 p) (unitDir (rowOf v1 p)) (matOf v70) (vecOf v73) (matOf v45)) (matOf v80) (vecOf v82) q := by
  unfold k0_pay6
  rw [shapeCast_self v45, shapeCast_self v70]
  refine (square_affine_at _ _ v80 v82 _ _ p q).trans ?_
  refine congrArg (fun x => lin x (matOf v80) (vecOf v82) q) (funext fun k => ?_)
  -- entry (p, k) of the rectified first colour layer: move the index inside the entry-by-entry operations
  simp only [maximumf_apply, addf_apply, mulf_apply, broadcast_apply]
  rw [square_product_at, Cert.LibBiasRows.bias_rows v73 _ _ p k,
    dir_col_at _ 0 (by decide), dir_col_at _ 1 (by decide), dir_col_at _ 2 (by decide),
    weight_row_at v45 0 (by decide), weight_row_at v45 1 (by decide), weight_row_at v45 2 (by decide),
    unit_dir_at, unit_dir_at, unit_dir_at]
  rfl

/-! ## The colour -/

/-- Three one-entry columns set side by side, at (p, j): column j at (p, 0). -/
theorem three_cols_at (c0 c1 c2 : FVec Ideal S16384x1 .f32)
    (h : Shape.Concatenates [S16384x1, S16384x1, S16384x1] S16384x3 1)
    (p : Fin 16384) :
    concatenate S16384x3 1 [⟨S16384x1, c0⟩, ⟨S16384x1, c1⟩, ⟨S16384x1, c2⟩] h (ix2 p (0 : Fin 3)) = c0 (ix2 p (0 : Fin 1))
    ∧ concatenate S16384x3 1 [⟨S16384x1, c0⟩, ⟨S16384x1, c1⟩, ⟨S16384x1, c2⟩] h (ix2 p (1 : Fin 3)) = c1 (ix2 p (0 : Fin 1))
    ∧ concatenate S16384x3 1 [⟨S16384x1, c0⟩, ⟨S16384x1, c1⟩, ⟨S16384x1, c2⟩] h (ix2 p (2 : Fin 3)) = c2 (ix2 p (0 : Fin 1)) := by
  have side : ∀ (j : S16384x3.Idx) (b : Fin S16384x1.rank), b.cast (rfl : S16384x1.rank = S16384x3.rank) ≠ (1 : Fin S16384x3.rank) →
      ((ix2 p (0 : Fin 1) : S16384x1.Idx) b).val = ((ix2 p (j 1) : S16384x3.Idx) (b.cast rfl)).val := fun j b hb => by
    match b with
    | ⟨0, _⟩ => rfl
    | ⟨1, _⟩ => exact absurd rfl hb
  refine ⟨?_, ?_, ?_⟩
  · exact concatenate_apply_piece (1 : Fin S16384x3.rank) [⟨S16384x1, c0⟩, ⟨S16384x1, c1⟩, ⟨S16384x1, c2⟩] h (ix2 p (0 : Fin 3)) 0 (by show (0 : ℕ) < 3; omega) S16384x1 c0 rfl rfl 0 rfl
      (ix2 p (0 : Fin 1)) (side (ix2 p (0 : Fin 3))) rfl
  · exact concatenate_apply_piece (1 : Fin S16384x3.rank) [⟨S16384x1, c0⟩, ⟨S16384x1, c1⟩, ⟨S16384x1, c2⟩] h (ix2 p (1 : Fin 3)) 1 (by show (1 : ℕ) < 3; omega) S16384x1 c1 rfl rfl 1 rfl
      (ix2 p (0 : Fin 1)) (side (ix2 p (1 : Fin 3))) rfl
  · exact concatenate_apply_piece (1 : Fin S16384x3.rank) [⟨S16384x1, c0⟩, ⟨S16384x1, c1⟩, ⟨S16384x1, c2⟩] h (ix2 p (2 : Fin 3)) 2 (by show (2 : ℕ) < 3; omega) S16384x1 c2 rfl rfl 2 rfl
      (ix2 p (0 : Fin 1)) (side (ix2 p (2 : Fin 3))) rfl

/-- Column o of a [64, 3] matrix, as a one-entry-wide block, at (k, 0): the matrix at (k, o). -/
theorem weight_col_at (W : FVec Ideal S64x3 .f32) (o : ℕ) (ho : o < 3) (hs : S64x3.Slices ![0, o] S64x1) (k : Fin 64) :
    extractStridedSlice S64x1 ![0, o] W hs (ix2 k (0 : Fin 1)) = W (ix2 k ⟨o, ho⟩) :=
  Cert.LibColumnPieces.slice2_apply ![0, o] W hs (ix2 k (0 : Fin 1)) (ix2 k ⟨o, ho⟩) (Nat.zero_add _).symm rfl

/-- What the kernel leaves for the colour output at (p, j), from the last hidden layer before its rectifier. -/
theorem colour_at (v85 : FVec Ideal S16384x64 .f32) (v88 : FVec Ideal S64x3 .f32) (v111 : FVec Ideal S3 .f32)
    (p : Fin 16384) (j : Fin 3) :
    k0_pay1 (F := Ideal) v85 v88 v111 (ix2 p j)
      = Ideal.logistic (lin (fun k => relu (v85 (ix2 p k))) (matOf v88) (vecOf v111) j) := by
  unfold k0_pay1
  refine (logistic_at _ (ix2 p j)).trans (congrArg Ideal.logistic ?_)
  refine (addf_apply _ _ (ix2 p j)).trans ?_
  rw [Cert.LibBiasRows.bias_rows v111 _ _ p j]
  refine congrArg (fun x => x + v111 (ix1 j)) ?_
  match j with
  | ⟨0, _⟩ =>
    refine (three_cols_at _ _ _ _ p).1.trans ((column_at _ _ _ _ _ _ _ _ _ p 0).trans (Finset.sum_congr rfl fun k _ => ?_))
    rw [weight_col_at v88 0 (by decide)]; rfl
  | ⟨1, _⟩ =>
    refine (three_cols_at _ _ _ _ p).2.1.trans ((column_at _ _ _ _ _ _ _ _ _ p 0).trans (Finset.sum_congr rfl fun k _ => ?_))
    rw [weight_col_at v88 1 (by decide)]; rfl
  | ⟨2, _⟩ =>
    refine (three_cols_at _ _ _ _ p).2.2.trans ((column_at _ _ _ _ _ _ _ _ _ p 0).trans (Finset.sum_congr rfl fun k _ => ?_))
    rw [weight_col_at v88 2 (by decide)]; rfl

end Cert.KernelIdeal.Rows

end
-- ==== Proof.KernelOutputs.lean ====
/-
  What the kernel body leaves in its two output blocks, read at a row, as the network of RowModel.lean in its second
  arrangement: the colour block from the two input blocks and the eleven weight blocks the colour net reads, the density
  block from the encoded-coordinates block and the seven weight blocks the density net reads.
-/
import proofs.«177068_j11587821765175_2_alg».proof.Proof.KernelColour

noncomputable section

namespace Cert.KernelIdeal.Rows

open Cert.KernelIdeal Cert.KernelIdeal.Gen Cert.RowModel Idealize.ShloMosaic Idealize.ShloMosaic.ValueIdx

/-- The colour block at (p, j). -/
theorem colour_block_at (x0 : FVec Ideal S16384x32 .f32) (x1 : FVec Ideal S16384x3 .f32) (x2 : FVec Ideal S32x128 .f32)
    (x3 : FVec Ideal S128 .f32) (x8 : FVec Ideal S64x64 .f32) (x9 : FVec Ideal S64 .f32) (x10 : FVec Ideal S3x64 .f32)
    (x11 : FVec Ideal S64x64 .f32) (x12 : FVec Ideal S64 .f32) (x13 : FVec Ideal S64x3 .f32) (x14 : FVec Ideal S3 .f32)
    (p : Fin 16384) (j : Fin 3) :
    k0_pay1 (F := Ideal) (k0_pay6 (F := Ideal) x1 (k0_pay3 (F := Ideal) x0 x2 x3) (k0_pay5 (F := Ideal) x1) x10 x8 x9 x11 x12) x13 x14 (ix2 p j)
      = colourSplit (rowOf x0 p) (rowOf x1 p) (matOf x2) (vecOf x3) (matOf x8) (vecOf x9) (matOf x10) (matOf x11) (vecOf x12)
          (matOf x13) (vecOf x14) j := by
  refine (colour_at _ x13 x14 p j).trans ?_
  have hfeat : rowOf (k0_pay3 (F := Ideal) x0 x2 x3) p = rightHalf (rowOf x0 p) (matOf x2) (vecOf x3) :=
    funext fun k => features_at x0 x2 x3 p k
  have hhid : (fun k => relu (k0_pay6 (F := Ideal) x1 (k0_pay3 (F := Ideal) x0 x2 x3) (k0_pay5 (F := Ideal) x1) x10 x8 x9 x11 x12 (ix2 p k)))
      = layer (firstSplit (rightHalf (rowOf x0 p) (matOf x2) (vecOf x3)) (unitDir (rowOf x1 p)) (matOf x8) (vecOf x9) (matOf x10))
          (matOf x11) (vecOf x12) :=
    funext fun k => by rw [hidden_colour_at, hfeat]; rfl
  rw [hhid]
  rfl

/-- The density block at (p, 0). -/
theorem density_block_at (x0 : FVec Ideal S16384x32 .f32) (x2 : FVec Ideal S32x128 .f32) (x3 : FVec Ideal S128 .f32)
    (x4 : FVec Ideal S64x64 .f32) (x5 : FVec Ideal S64 .f32) (x6 : FVec Ideal S64x1 .f32) (x7 : FVec Ideal S1 .f32)
    (p : Fin 16384) :
    k0_pay4 (F := Ideal) x0 x2 x3 x4 x5 x6 x7 (ix2 p (0 : Fin 1))
      = densityFused (rowOf x0 p) (matOf x2) (vecOf x3) (matOf x4) (vecOf x5) (matOf x6) (vecOf x7) :=
  density_at x0 x2 x3 x4 x5 x6 x7 p

end Cert.KernelIdeal.Rows

end
-- ==== Proof.KernelBlocks.lean ====
/-
  From blocks to whole arrays.

  The grid has 128 points. At point t the two large inputs and the two outputs are staged as blocks of 16384 consecutive
  rows, rows 16384 * t .. 16384 * t + 16383 of their arrays, all columns; every weight array is staged whole at every point.
  Four of the weight arrays are made from the arguments before the kernel starts: the first-layer weights of the
  density net and of the features set side by side as one [32, 128] matrix; their biases one after the other as one
  vector of 128; and the first colour layer's [67, 64] weights cut into its first 64 rows and its last 3 rows.

  So the block a point writes back is, row by row, the colour (the density) of the matching row of the argument arrays:
  the second arrangement of the network applied to the fused and cut weights is the first arrangement applied to the
  arguments themselves. The 128 blocks tile the output arrays, so each output array ends as one whole-array function of
  the arguments.
-/
import proofs.«177068_j11587821765175_2_alg».proof.Proof.Gen.KernelIdeal.Frame
import proofs.«177068_j11587821765175_2_alg».proof.Proof.KernelOutputs
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Rows Cert.RowModel
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where each window's block sits -/

/-- The two large inputs and the two outputs move down their arrays one block per point and stay in column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

theorem point_lt (t : Fin cfg0.N) : t.val < 128 := by
  have h : t.val < cfg0.N := t.isLt
  have e : cfg0.N = 128 := N_0
  omega

/-! ## The blocks of the two large inputs: 16384 consecutive rows -/

theorem coords_block (c : Dev nD) (t : Fin cfg0.N) (p : Fin 16384) (k : Fin 32) :
    iblk m c 0 t (ix2 p k)
      = V m c main_arg0 (ix2 (⟨t.val * 16384 + p.val, by have := point_lt t; have := p.isLt; omega⟩ : Fin 2097152) k) := by
  show V m c main_arg0 (((cfg0.win 0).blk t).view.emb (ix2 p k)) = _
  obtain ⟨e0, e1, -⟩ := idx_rows t
  refine congrArg (V m c main_arg0) (funext fun a => Fin.ext ?_)
  match a with
  | ⟨0, _⟩ => show win0_0.index t (0 : Fin 2) * 16384 + 1 * p.val = t.val * 16384 + p.val; rw [e0]; omega
  | ⟨1, _⟩ => show win0_0.index t (1 : Fin 2) * 32 + 1 * k.val = k.val; rw [e1]; omega

theorem dirs_block (c : Dev nD) (t : Fin cfg0.N) (p : Fin 16384) (a : Fin 3) :
    iblk m c 1 t (ix2 p a)
      = V m c main_arg1 (ix2 (⟨t.val * 16384 + p.val, by have := point_lt t; have := p.isLt; omega⟩ : Fin 2097152) a) := by
  show V m c main_arg1 (((cfg0.win 1).blk t).view.emb (ix2 p a)) = _
  obtain ⟨-, -, e0, e1, -⟩ := idx_rows t
  refine congrArg (V m c main_arg1) (funext fun b => Fin.ext ?_)
  match b with
  | ⟨0, _⟩ => show win0_1.index t (0 : Fin 2) * 16384 + 1 * p.val = t.val * 16384 + p.val; rw [e0]; omega
  | ⟨1, _⟩ => show win0_1.index t (1 : Fin 2) * 3 + 1 * a.val = a.val; rw [e1]; omega

/-! ## The weight windows: the whole array at every point -/

theorem idx_fusedW : ∀ t : Fin cfg0.N, win0_2.index t (0 : Fin 2) = 0 ∧ win0_2.index t (1 : Fin 2) = 0 :=
  (by decide +kernel : ∀ t : Fin grid0.N, _)
/-- Window 2, the fused first-layer weights: its block at any point is the whole array. -/
theorem fusedW_block (c : Dev nD) (t : Fin cfg0.N) (y : S32x128.Idx) : iblk m c 2 t y = V m c main_call0_v0 y := by
  show V m c main_call0_v0 (((cfg0.win 2).blk t).view.emb y) = _
  obtain ⟨e0, e1⟩ := idx_fusedW t
  refine congrArg (V m c main_call0_v0) (funext fun a => Fin.ext ?_)
  match a with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

theorem idx_fusedB : ∀ t : Fin cfg0.N, win0_3.index t (0 : Fin 1) = 0 :=
  (by decide +kernel : ∀ t : Fin grid0.N, _)
/-- Window 3, the fused first-layer biases: its block at any point is the whole array. -/
theorem fusedB_block (c : Dev nD) (t : Fin cfg0.N) (y : S128.Idx) : iblk m c 3 t y = V m c main_call0_v1 y := by
  show V m c main_call0_v1 (((cfg0.win 3).blk t).view.emb y) = _
  have e0 := idx_fusedB t
  refine congrArg (V m c main_call0_v1) (funext fun a => Fin.ext ?_)
  match a with
  | ⟨0, _⟩ => show win0_3.index t (0 : Fin 1) * 128 + 1 * (y 0).val = (y 0).val; rw [e0]; omega

theorem idx_dw1 : ∀ t : Fin cfg0.N, win0_4.index t (0 : Fin 2) = 0 ∧ win0_4.index t (1 : Fin 2) = 0 :=
  (by decide +kernel : ∀ t : Fin grid0.N, _)
/-- Window 4, the density net's second weights: its block at any point is the whole array. -/
theorem dw1_block (c : Dev nD) (t : Fin cfg0.N) (y : S64x64.Idx) : iblk m c 4 t y = V m c main_arg4 y := by
  show V m c main_arg4 (((cfg0.win 4).blk t).view.emb y) = _
  obtain ⟨e0, e1⟩ := idx_dw1 t
  refine congrArg (V m c main_arg4) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

theorem idx_db1 : ∀ t : Fin cfg0.N, win0_5.index t (0 : Fin 1) = 0 :=
  (by decide +kernel : ∀ t : Fin grid0.N, _)
/-- Window 5, the density net's second biases: its block at any point is the whole array. -/
theorem db1_block (c : Dev nD) (t : Fin cfg0.N) (y : S64.Idx) : iblk m c 5 t y = V m c main_arg5 y := by
  show V m c main_arg5 (((cfg0.win 5).blk t).view.emb y) = _
  have e0 := idx_db1 t
  refine congrArg (V m c main_arg5) (funext fun a => Fin.ext ?_)
  match a with
  | ⟨0, _⟩ => show win0_5.index t (0 : Fin 1) * 64 + 1 * (y 0).val = (y 0).val; rw [e0]; omega

theorem idx_dw2 : ∀ t : Fin cfg0.N, win0_6.index t (0 : Fin 2) = 0 ∧ win0_6.index t (1 : Fin 2) = 0 :=
  (by decide +kernel : ∀ t : Fin grid0.N, _)
/-- Window 6, the density net's third weights: its block at any point is the whole array. -/
theorem dw2_block (c : Dev nD) (t : Fin cfg0.N) (y : S64x1.Idx) : iblk m c 6 t y = V m c main_arg6 y := by
  show V m c main_arg6 (((cfg0.win 6).blk t).view.emb y) = _
  obtain ⟨e0, e1⟩ := idx_dw2 t
  refine congrArg (V m c main_arg6) (funext fun a => Fin.ext ?_)
  match a with
  | ⟨0, _⟩ => show win0_6.index t (0 : Fin 2) * 64 + 1 * (y 0).val = (y 0).val; rw [e0]; omega
  | ⟨1, _⟩ => show win0_6.index t (1 : Fin 2) * 1 + 1 * (y 1).val = (y 1).val; rw [e1]; omega

theorem idx_db2 : ∀ t : Fin cfg0.N, win0_7.index t (0 : Fin 1) = 0 :=
  (by decide +kernel : ∀ t : Fin grid0.N, _)
/-- Window 7, the density net's third bias: its block at any point is the whole array. -/
theorem db2_block (c : Dev nD) (t : Fin cfg0.N) (y : S1.Idx) : iblk m c 7 t y = V m c main_arg7 y := by
  show V m c main_arg7 (((cfg0.win 7).blk t).view.emb y) = _
  have e0 := idx_db2 t
  refine congrArg (V m c main_arg7) (funext fun a => Fin.ext ?_)
  match a with
  | ⟨0, _⟩ => show win0_7.index t (0 : Fin 1) * 1 + 1 * (y 0).val = (y 0).val; rw [e0]; omega

theorem idx_cw0Top : ∀ t : Fin cfg0.N, win0_8.index t (0 : Fin 2) = 0 ∧ win0_8.index t (1 : Fin 2) = 0 :=
  (by decide +kernel : ∀ t : Fin grid0.N, _)
/-- Window 8, the first 64 rows of the first colour weights: its block at any point is the whole array. -/
theorem cw0Top_block (c : Dev nD) (t : Fin cfg0.N) (y : S64x64.Idx) : iblk m c 8 t y = V m c main_call0_v2 y := by
  show V m c main_call0_v2 (((cfg0.win 8).blk t).view.emb y) = _
  obtain ⟨e0, e1⟩ := idx_cw0Top t
  refine congrArg (V m c main_call0_v2) (funext fun a => Fin.ext ?_)
  match a with
  | ⟨0, _⟩ => show win0_8.index t (0 : Fin 2) * 64 + 1 * (y 0).val = (y 0).val; rw [e0]; omega
  | ⟨1, _⟩ => show win0_8.index t (1 : Fin 2) * 64 + 1 * (y 1).val = (y 1).val; rw [e1]; omega

theorem idx_cb0 : ∀ t : Fin cfg0.N, win0_9.index t (0 : Fin 1) = 0 :=
  (by decide +kernel : ∀ t : Fin grid0.N, _)
/-- Window 9, the first colour biases: its block at any point is the whole array. -/
theorem cb0_block (c : Dev nD) (t : Fin cfg0.N) (y : S64.Idx) : iblk m c 9 t y = V m c main_arg11 y := by
  show V m c main_arg11 (((cfg0.win 9).blk t).view.emb y) = _
  have e0 := idx_cb0 t
  refine congrArg (V m c main_arg11) (funext fun a => Fin.ext ?_)
  match a with
  | ⟨0, _⟩ => show win0_9.index t (0 : Fin 1) * 64 + 1 * (y 0).val = (y 0).val; rw [e0]; omega

theorem idx_cw0Bottom : ∀ t : Fin cfg0.N, win0_10.index t (0 : Fin 2) = 0 ∧ win0_10.index t (1 : Fin 2) = 0 :=
  (by decide +kernel : ∀ t : Fin grid0.N, _)
/-- Window 10, the last 3 rows of the first colour weights: its block at any point is the whole array. -/
theorem cw0Bottom_block (c : Dev nD) (t : Fin cfg0.N) (y : S3x64.Idx) : iblk m c 10 t y = V m c main_call0_v3 y := by
  show V m c main_call0_v3 (((cfg0.win 10).blk t).view.emb y) = _
  obtain ⟨e0, e1⟩ := idx_cw0Bottom t
  refine congrArg (V m c main_call0_v3) (funext fun a => Fin.ext ?_)
  match a with
  | ⟨0, _⟩ => show win0_10.index t (0 : Fin 2) * 3 + 1 * (y 0).val = (y 0).val; rw [e0]; omega
  | ⟨1, _⟩ => show win0_10.index t (1 : Fin 2) * 64 + 1 * (y 1).val = (y 1).val; rw [e1]; omega

theorem idx_cw1 : ∀ t : Fin cfg0.N, win0_11.index t (0 : Fin 2) = 0 ∧ win0_11.index t (1 : Fin 2) = 0 :=
  (by decide +kernel : ∀ t : Fin grid0.N, _)
/-- Window 11, the second colour weights: its block at any point is the whole array. -/
theorem cw1_block (c : Dev nD) (t : Fin cfg0.N) (y : S64x64.Idx) : iblk m c 11 t y = V m c main_arg12 y := by
  show V m c main_arg12 (((cfg0.win 11).blk t).view.emb y) = _
  obtain ⟨e0, e1⟩ := idx_cw1 t
  refine congrArg (V m c main_arg12) (funext fun a => Fin.ext ?_)
  match a with
  | ⟨0, _⟩ => show win0_11.index t (0 : Fin 2) * 64 + 1 * (y 0).val = (y 0).val; rw [e0]; omega
  | ⟨1, _⟩ => show win0_11.index t (1 : Fin 2) * 64 + 1 * (y 1).val = (y 1).val; rw [e1]; omega

theorem idx_cb1 : ∀ t : Fin cfg0.N, win0_12.index t (0 : Fin 1) = 0 :=
  (by decide +kernel : ∀ t : Fin grid0.N, _)
/-- Window 12, the second colour biases: its block at any point is the whole array. -/
theorem cb1_block (c : Dev nD) (t : Fin cfg0.N) (y : S64.Idx) : iblk m c 12 t y = V m c main_arg13 y := by
  show V m c main_arg13 (((cfg0.win 12).blk t).view.emb y) = _
  have e0 := idx_cb1 t
  refine congrArg (V m c main_arg13) (funext fun a => Fin.ext ?_)
  match a with
  | ⟨0, _⟩ => show win0_12.index t (0 : Fin 1) * 64 + 1 * (y 0).val = (y 0).val; rw [e0]; omega

theorem idx_cw2 : ∀ t : Fin cfg0.N, win0_13.index t (0 : Fin 2) = 0 ∧ win0_13.index t (1 : Fin 2) = 0 :=
  (by decide +kernel : ∀ t : Fin grid0.N, _)
/-- Window 13, the third colour weights: its block at any point is the whole array. -/
theorem cw2_block (c : Dev nD) (t : Fin cfg0.N) (y : S64x3.Idx) : iblk m c 13 t y = V m c main_arg14 y := by
  show V m c main_arg14 (((cfg0.win 13).blk t).view.emb y) = _
  obtain ⟨e0, e1⟩ := idx_cw2 t
  refine congrArg (V m c main_arg14) (funext fun a => Fin.ext ?_)
  match a with
  | ⟨0, _⟩ => show win0_13.index t (0 : Fin 2) * 64 + 1 * (y 0).val = (y 0).val; rw [e0]; omega
  | ⟨1, _⟩ => show win0_13.index t (1 : Fin 2) * 3 + 1 * (y 1).val = (y 1).val; rw [e1]; omega

theorem idx_cb2 : ∀ t : Fin cfg0.N, win0_14.index t (0 : Fin 1) = 0 :=
  (by decide +kernel : ∀ t : Fin grid0.N, _)
/-- Window 14, the third colour biases: its block at any point is the whole array. -/
theorem cb2_block (c : Dev nD) (t : Fin cfg0.N) (y : S3.Idx) : iblk m c 14 t y = V m c main_arg15 y := by
  show V m c main_arg15 (((cfg0.win 14).blk t).view.emb y) = _
  have e0 := idx_cb2 t
  refine congrArg (V m c main_arg15) (funext fun a => Fin.ext ?_)
  match a with
  | ⟨0, _⟩ => show win0_14.index t (0 : Fin 1) * 3 + 1 * (y 0).val = (y 0).val; rw [e0]; omega

/-! ## The four arrays made before the kernel starts -/

/-- The fused first-layer weights: the density net's and the features' [32, 64] weights side by side. -/
theorem fusedW_made (c : Dev nD) :
    (V m c main_call0_v0 : S32x128.Idx → Ideal .f32)
      = concatenate S32x128 1 [⟨S32x64, m ((c : Thread nD τ).loc main_arg2)⟩, ⟨S32x64, m ((c : Thread nD τ).loc main_arg8)⟩]
          concatenates_S32x64_S32x64_S32x128_d1 := by
  show StableHlo.after hostOps0 (fun b => m (c, b)) (Proc.devRef .tc main_call0_v0) = _
  after_results
  rfl

/-- The fused first-layer biases: the density net's 64 biases followed by the features' 64. -/
theorem fusedB_made (c : Dev nD) :
    (V m c main_call0_v1 : S128.Idx → Ideal .f32)
      = concatenate S128 0 [⟨S64, m ((c : Thread nD τ).loc main_arg3)⟩, ⟨S64, m ((c : Thread nD τ).loc main_arg9)⟩]
          concatenates_S64_S64_S128_d0 := by
  show StableHlo.after hostOps0 (fun b => m (c, b)) (Proc.devRef .tc main_call0_v1) = _
  after_results
  rfl

/-- The first 64 rows of the first colour layer's [67, 64] weights. -/
theorem cw0Top_made (c : Dev nD) :
    (V m c main_call0_v2 : S64x64.Idx → Ideal .f32)
      = extractStridedSlice S64x64 ![0, 0] (m ((c : Thread nD τ).loc main_arg10)) slices_S67x64_S64x64_0_0 := by
  show StableHlo.after hostOps0 (fun b => m (c, b)) (Proc.devRef .tc main_call0_v2) = _
  after_results
  rfl

/-- The last 3 rows of the first colour layer's [67, 64] weights. -/
theorem cw0Bottom_made (c : Dev nD) :
    (V m c main_call0_v3 : S3x64.Idx → Ideal .f32)
      = extractStridedSlice S3x64 ![64, 0] (m ((c : Thread nD τ).loc main_arg10)) slices_S67x64_S3x64_64_0 := by
  show StableHlo.after hostOps0 (fun b => m (c, b)) (Proc.devRef .tc main_call0_v3) = _
  after_results
  rfl

/-- Column q of the left half of the fused weights is column q of the density net's first weights. -/
theorem fusedW_left (c : Dev nD) (k : Fin 32) (q : Fin 64) :
    V m c main_call0_v0 (ix2 k (⟨q.val, by have := q.isLt; omega⟩ : Fin 128)) = m ((c : Thread nD τ).loc main_arg2) (ix2 k q) := by
  rw [fusedW_made]
  refine concatenate_pair_apply_left (t := S32x128) (s₁ := S32x64) (s₂ := S32x64) (1 : Fin S32x128.rank) _ _ _ _ rfl (ix2 k q) fun b => ?_
  match b with
  | ⟨0, _⟩ => rfl
  | ⟨1, _⟩ => rfl

/-- Column 64 + q of the fused weights is column q of the features' weights. -/
theorem fusedW_right (c : Dev nD) (k : Fin 32) (q : Fin 64) :
    V m c main_call0_v0 (ix2 k (⟨64 + q.val, by have := q.isLt; omega⟩ : Fin 128)) = m ((c : Thread nD τ).loc main_arg8) (ix2 k q) := by
  rw [fusedW_made]
  refine concatenate_pair_apply_right (t := S32x128) (s₁ := S32x64) (s₂ := S32x64) (1 : Fin S32x128.rank) _ _ _ _ rfl rfl (ix2 k q) (fun b hb => ?_) ?_
  · match b with
    | ⟨0, _⟩ => rfl
    | ⟨1, _⟩ => exact absurd rfl hb
  · show q.val + 64 = 64 + q.val
    omega

/-- Entry q of the first half of the fused biases is the density net's first bias q. -/
theorem fusedB_left (c : Dev nD) (q : Fin 64) :
    V m c main_call0_v1 (ix1 (⟨q.val, by have := q.isLt; omega⟩ : Fin 128)) = m ((c : Thread nD τ).loc main_arg3) (ix1 q) := by
  rw [fusedB_made]
  refine concatenate_pair_apply_left (t := S128) (s₁ := S64) (s₂ := S64) (0 : Fin S128.rank) _ _ _ _ rfl (ix1 q) fun b => ?_
  match b with
  | ⟨0, _⟩ => rfl

/-- Entry 64 + q of the fused biases is the features' bias q. -/
theorem fusedB_right (c : Dev nD) (q : Fin 64) :
    V m c main_call0_v1 (ix1 (⟨64 + q.val, by have := q.isLt; omega⟩ : Fin 128)) = m ((c : Thread nD τ).loc main_arg9) (ix1 q) := by
  rw [fusedB_made]
  refine concatenate_pair_apply_right (t := S128) (s₁ := S64) (s₂ := S64) (0 : Fin S128.rank) _ _ _ _ rfl rfl (ix1 q) (fun b hb => ?_) ?_
  · match b with
    | ⟨0, _⟩ => exact absurd rfl hb
  · show q.val + 64 = 64 + q.val
    omega

/-- Row k of the top cut is row k of the first colour weights. -/
theorem cw0Top_at (c : Dev nD) (k q : Fin 64) :
    V m c main_call0_v2 (ix2 k q) = m ((c : Thread nD τ).loc main_arg10) (ix2 (⟨k.val, by have := k.isLt; omega⟩ : Fin 67) q) := by
  rw [cw0Top_made]
  exact Cert.LibColumnPieces.slice2_apply ![0, 0] _ _ (ix2 k q) (ix2 (⟨k.val, by have := k.isLt; omega⟩ : Fin 67) q)
    (Nat.zero_add _).symm (Nat.zero_add _).symm

/-- Row a of the bottom cut is row 64 + a of the first colour weights. -/
theorem cw0Bottom_at (c : Dev nD) (a : Fin 3) (q : Fin 64) :
    V m c main_call0_v3 (ix2 a q) = m ((c : Thread nD τ).loc main_arg10) (ix2 (⟨64 + a.val, by have := a.isLt; omega⟩ : Fin 67) q) := by
  rw [cw0Bottom_made]
  exact Cert.LibColumnPieces.slice2_apply ![64, 0] _ _ (ix2 a q) (ix2 (⟨64 + a.val, by have := a.isLt; omega⟩ : Fin 67) q)
    rfl (Nat.zero_add _).symm

/-! ## What a point writes back -/

theorem hz2 : (![0, 0] : Fin 2 → Nat) = fun _ => 0 := funext fun a => by fin_cases a <;> rfl
theorem hz1 : (![0] : Fin 1 → Nat) = fun _ => 0 := funext fun a => by fin_cases a <;> rfl

/-- The colour of every row of the arguments as launched. -/
abbrev colourOf (c : Dev nD) : S2097152x3.Idx → Ideal .f32 :=
  colourArr (m ((c : Thread nD τ).loc main_arg0)) (m ((c : Thread nD τ).loc main_arg1)) (m ((c : Thread nD τ).loc main_arg8)) (m ((c : Thread nD τ).loc main_arg9))
    (m ((c : Thread nD τ).loc main_arg10)) (m ((c : Thread nD τ).loc main_arg11)) (m ((c : Thread nD τ).loc main_arg12)) (m ((c : Thread nD τ).loc main_arg13))
    (m ((c : Thread nD τ).loc main_arg14)) (m ((c : Thread nD τ).loc main_arg15))

/-- The density of every row of the arguments as launched, kept as a one-entry-wide column. -/
abbrev densityColOf (c : Dev nD) : S2097152x1.Idx → Ideal .f32 := fun i =>
  density (rowOf (m ((c : Thread nD τ).loc main_arg0)) (i 0)) (matOf (m ((c : Thread nD τ).loc main_arg2))) (vecOf (m ((c : Thread nD τ).loc main_arg3)))
    (matOf (m ((c : Thread nD τ).loc main_arg4))) (vecOf (m ((c : Thread nD τ).loc main_arg5))) (matOf (m ((c : Thread nD τ).loc main_arg6))) (vecOf (m ((c : Thread nD τ).loc main_arg7)))

/-- Row p of the block of encoded coordinates at point t is row 16384 * t + p of the argument. -/
theorem coords_row (c : Dev nD) (t : Fin cfg0.N) (p : Fin 16384) :
    rowOf (iblk m c 0 t) p
      = rowOf (m ((c : Thread nD τ).loc main_arg0)) (⟨t.val * 16384 + p.val, by have := point_lt t; have := p.isLt; omega⟩ : Fin 2097152) :=
  funext fun k => (coords_block m c t p k).trans (congrFun (V_main_arg0 m c) _)

/-- Row p of the block of directions at point t is row 16384 * t + p of the argument. -/
theorem dirs_row (c : Dev nD) (t : Fin cfg0.N) (p : Fin 16384) :
    rowOf (iblk m c 1 t) p
      = rowOf (m ((c : Thread nD τ).loc main_arg1)) (⟨t.val * 16384 + p.val, by have := point_lt t; have := p.isLt; omega⟩ : Fin 2097152) :=
  funext fun a => (dirs_block m c t p a).trans (congrFun (V_main_arg1 m c) _)

/-- Point t writes back, in the colour window, rows 16384 * t .. of the colour of every row. -/
theorem colour_flushed (c : Dev nD) (t : Fin cfg0.N) :
    (dats m 0 c).flushed 15 t = ((cfg0.win 15).blk t).view.read (Elt Ideal) (colourOf m c) := by
  show (cfg0.win 15).cut (grid0.coords t) ((dats m 0 c).after 15 t) = _
  rw [after0_15]
  unfold out0_15
  rw [View.canon_unit_zero hz2]
  simp only [View.ld_unit_zero (S := S16384x32) hz2, View.ld_unit_zero (S := S16384x3) hz2, View.ld_unit_zero (S := S32x128) hz2,
    View.ld_unit_zero (S := S128) hz1, View.ld_unit_zero (S := S64x64) hz2, View.ld_unit_zero (S := S64) hz1,
    View.ld_unit_zero (S := S3x64) hz2, View.ld_unit_zero (S := S64x3) hz2, View.ld_unit_zero (S := S3) hz1]
  funext y
  obtain ⟨p, j, rfl⟩ : ∃ (p : Fin 16384) (j : Fin 3), y = ix2 p j := ⟨y 0, y 1, eq_ix2 y⟩
  refine (colour_block_at (iblk m c 0 t) (iblk m c 1 t) (iblk m c 2 t) (iblk m c 3 t) (iblk m c 8 t) (iblk m c 9 t)
    (iblk m c 10 t) (iblk m c 11 t) (iblk m c 12 t) (iblk m c 13 t) (iblk m c 14 t) p j).trans ?_
  -- the block of the whole-array function at (p, j) is the function at row 16384 * t + p
  have hR : ((cfg0.win 15).blk t).view.read (Elt Ideal) (colourOf m c) (ix2 p j)
      = colourOf m c (ix2 (⟨t.val * 16384 + p.val, by have := point_lt t; have := p.isLt; omega⟩ : Fin 2097152) j) := by
    show colourOf m c (((cfg0.win 15).blk t).view.emb (ix2 p j)) = _
    obtain ⟨-, -, -, -, e0, e1, -⟩ := idx_rows t
    refine congrArg (colourOf m c) (funext fun a => Fin.ext ?_)
    match a with
    | ⟨0, _⟩ => show win0_15.index t (0 : Fin 2) * 16384 + 1 * p.val = t.val * 16384 + p.val; rw [e0]; omega
    | ⟨1, _⟩ => show win0_15.index t (1 : Fin 2) * 3 + 1 * j.val = j.val; rw [e1]; omega
  rw [hR, coords_row, dirs_row]
  have w9 : vecOf (iblk m c 9 t) = vecOf (m ((c : Thread nD τ).loc main_arg11)) :=
    funext fun q => (cb0_block m c t (ix1 q)).trans (congrFun (V_main_arg11 m c) _)
  have w11 : matOf (iblk m c 11 t) = matOf (m ((c : Thread nD τ).loc main_arg12)) :=
    funext fun k => funext fun q => (cw1_block m c t (ix2 k q)).trans (congrFun (V_main_arg12 m c) _)
  have w12 : vecOf (iblk m c 12 t) = vecOf (m ((c : Thread nD τ).loc main_arg13)) :=
    funext fun q => (cb1_block m c t (ix1 q)).trans (congrFun (V_main_arg13 m c) _)
  have w13 : matOf (iblk m c 13 t) = matOf (m ((c : Thread nD τ).loc main_arg14)) :=
    funext fun k => funext fun q => (cw2_block m c t (ix2 k q)).trans (congrFun (V_main_arg14 m c) _)
  have w14 : vecOf (iblk m c 14 t) = vecOf (m ((c : Thread nD τ).loc main_arg15)) :=
    funext fun q => (cb2_block m c t (ix1 q)).trans (congrFun (V_main_arg15 m c) _)
  rw [w9, w11, w12, w13, w14]
  refine congrFun (colour_split _ _ (matOf (iblk m c 2 t)) (vecOf (iblk m c 3 t)) (matOf (iblk m c 8 t)) (matOf (iblk m c 10 t))
    (matOf (m ((c : Thread nD τ).loc main_arg8))) (vecOf (m ((c : Thread nD τ).loc main_arg9))) (matOf (m ((c : Thread nD τ).loc main_arg10))) _ _ _ _ _
    (fun k q => (fusedW_block m c t _).trans (fusedW_right m c k q))
    (fun q => (fusedB_block m c t _).trans (fusedB_right m c q))
    (fun k q => (cw0Top_block m c t _).trans (cw0Top_at m c k q))
    (fun a q => (cw0Bottom_block m c t _).trans (cw0Bottom_at m c a q))) j

/-- Point t writes back, in the density window, rows 16384 * t .. of the density of every row. -/
theorem density_flushed (c : Dev nD) (t : Fin cfg0.N) :
    (dats m 0 c).flushed 16 t = ((cfg0.win 16).blk t).view.read (Elt Ideal) (densityColOf m c) := by
  show (cfg0.win 16).cut (grid0.coords t) ((dats m 0 c).after 16 t) = _
  rw [after0_16]
  unfold out0_16
  rw [View.canon_unit_zero hz2]
  simp only [View.ld_unit_zero (S := S16384x32) hz2, View.ld_unit_zero (S := S32x128) hz2, View.ld_unit_zero (S := S128) hz1,
    View.ld_unit_zero (S := S64x64) hz2, View.ld_unit_zero (S := S64) hz1, View.ld_unit_zero (S := S64x1) hz2,
    View.ld_unit_zero (S := S1) hz1]
  funext y
  obtain ⟨p, u, rfl⟩ : ∃ (p : Fin 16384) (u : Fin 1), y = ix2 p u := ⟨y 0, y 1, eq_ix2 y⟩
  obtain rfl : u = 0 := Subsingleton.elim _ _
  refine (density_block_at (iblk m c 0 t) (iblk m c 2 t) (iblk m c 3 t) (iblk m c 4 t) (iblk m c 5 t) (iblk m c 6 t)
    (iblk m c 7 t) p).trans ?_
  have hR : ((cfg0.win 16).blk t).view.read (Elt Ideal) (densityColOf m c) (ix2 p (0 : Fin 1))
      = densityColOf m c (ix2 (⟨t.val * 16384 + p.val, by have := point_lt t; have := p.isLt; omega⟩ : Fin 2097152) (0 : Fin 1)) := by
    show densityColOf m c (((cfg0.win 16).blk t).view.emb (ix2 p (0 : Fin 1))) = _
    obtain ⟨-, -, -, -, -, -, e0, e1⟩ := idx_rows t
    refine congrArg (densityColOf m c) (funext fun a => Fin.ext ?_)
    match a with
    | ⟨0, _⟩ => show win0_16.index t (0 : Fin 2) * 16384 + 1 * p.val = t.val * 16384 + p.val; rw [e0]; omega
    | ⟨1, _⟩ => show win0_16.index t (1 : Fin 2) * 1 + 1 * 0 = 0; rw [e1]
  rw [hR, coords_row]
  have w4 : matOf (iblk m c 4 t) = matOf (m ((c : Thread nD τ).loc main_arg4)) :=
    funext fun k => funext fun q => (dw1_block m c t (ix2 k q)).trans (congrFun (V_main_arg4 m c) _)
  have w5 : vecOf (iblk m c 5 t) = vecOf (m ((c : Thread nD τ).loc main_arg5)) :=
    funext fun q => (db1_block m c t (ix1 q)).trans (congrFun (V_main_arg5 m c) _)
  have w6 : matOf (iblk m c 6 t) = matOf (m ((c : Thread nD τ).loc main_arg6)) :=
    funext fun k => funext fun q => (dw2_block m c t (ix2 k q)).trans (congrFun (V_main_arg6 m c) _)
  have w7 : vecOf (iblk m c 7 t) = vecOf (m ((c : Thread nD τ).loc main_arg7)) :=
    funext fun q => (db2_block m c t (ix1 q)).trans (congrFun (V_main_arg7 m c) _)
  rw [w4, w5, w6, w7]
  exact density_fused _ (matOf (iblk m c 2 t)) (vecOf (iblk m c 3 t)) (matOf (m ((c : Thread nD τ).loc main_arg2))) (vecOf (m ((c : Thread nD τ).loc main_arg3))) _ _ _ _
    (fun k q => (fusedW_block m c t _).trans (fusedW_left m c k q))
    (fun q => (fusedB_block m c t _).trans (fusedB_left m c q))

/-! ## The blocks tile the arrays -/

/-- An index of the colour array is in point t's block iff each coordinate is in the block's range on its axis. -/
theorem colour_mem (t : Fin cfg0.N) (i : S2097152x3.Idx) :
    i ∈ ((cfg0.win 15).blk t).view.set
      ↔ ∀ a : Fin 2, win0_15.index t a * S16384x3.size a ≤ (i a).val ∧ (i a).val < win0_15.index t a * S16384x3.size a + S16384x3.size a := by
  show i ∈ ((View.whole main_v0_0).slice (win0_15.rect t)).set ↔ _
  rw [View.set_slice_whole, Rect.mem_set_unit]
  exact Iff.rfl

theorem density_mem (t : Fin cfg0.N) (i : S2097152x1.Idx) :
    i ∈ ((cfg0.win 16).blk t).view.set
      ↔ ∀ a : Fin 2, win0_16.index t a * S16384x1.size a ≤ (i a).val ∧ (i a).val < win0_16.index t a * S16384x1.size a + S16384x1.size a := by
  show i ∈ ((View.whole main_call0_v4_1).slice (win0_16.rect t)).set ↔ _
  rw [View.set_slice_whole, Rect.mem_set_unit]
  exact Iff.rfl

/-- Row r of the colour array is in the block of point r / 16384. -/
theorem colour_cover (i : S2097152x3.Idx) :
    ∃ t : Fin cfg0.N, (cfg0.win 15).flush t = true ∧ i ∈ ((cfg0.win 15).blk t).view.set := by
  have hi0 : (i 0).val < 2097152 := (i 0).isLt
  have hi1 : (i 1).val < 3 := (i 1).isLt
  have hN : cfg0.N = 128 := N_0
  refine ⟨⟨(i 0).val / 16384, by omega⟩, flush0_15 _, ?_⟩
  rw [colour_mem]
  obtain ⟨-, -, -, -, e0, e1, -⟩ := idx_rows ⟨(i 0).val / 16384, by omega⟩
  intro a
  match a with
  | ⟨0, _⟩ =>
    show win0_15.index _ (0 : Fin 2) * 16384 ≤ (i 0).val ∧ (i 0).val < win0_15.index _ (0 : Fin 2) * 16384 + 16384
    rw [e0]
    show (i 0).val / 16384 * 16384 ≤ (i 0).val ∧ (i 0).val < (i 0).val / 16384 * 16384 + 16384
    omega
  | ⟨1, _⟩ =>
    show win0_15.index _ (1 : Fin 2) * 3 ≤ (i 1).val ∧ (i 1).val < win0_15.index _ (1 : Fin 2) * 3 + 3
    rw [e1]
    omega

/-- Row r of the density column is in the block of point r / 16384. -/
theorem density_cover (i : S2097152x1.Idx) :
    ∃ t : Fin cfg0.N, (cfg0.win 16).flush t = true ∧ i ∈ ((cfg0.win 16).blk t).view.set := by
  have hi0 : (i 0).val < 2097152 := (i 0).isLt
  have hi1 : (i 1).val < 1 := (i 1).isLt
  have hN : cfg0.N = 128 := N_0
  refine ⟨⟨(i 0).val / 16384, by omega⟩, flush0_16 _, ?_⟩
  rw [density_mem]
  obtain ⟨-, -, -, -, -, -, e0, e1⟩ := idx_rows ⟨(i 0).val / 16384, by omega⟩
  intro a
  match a with
  | ⟨0, _⟩ =>
    show win0_16.index _ (0 : Fin 2) * 16384 ≤ (i 0).val ∧ (i 0).val < win0_16.index _ (0 : Fin 2) * 16384 + 16384
    rw [e0]
    show (i 0).val / 16384 * 16384 ≤ (i 0).val ∧ (i 0).val < (i 0).val / 16384 * 16384 + 16384
    omega
  | ⟨1, _⟩ =>
    show win0_16.index _ (1 : Fin 2) * 1 ≤ (i 1).val ∧ (i 1).val < win0_16.index _ (1 : Fin 2) * 1 + 1
    rw [e1]
    omega

/-! ## The two output arrays after the run -/

/-- The colour array ends as the colour of every row of the arguments. -/
theorem colour_final (c : Dev nD) : (dats m 0 c).arrAt 15 cfg0.N = colourOf m c :=
  (dats m 0 c).arrAt_eq_of_cover 15 (colourOf m c) (fun t _ => colour_flushed m c t) colour_cover

/-- The density column ends as the density of every row of the arguments. -/
theorem density_final (c : Dev nD) : (dats m 0 c).arrAt 16 cfg0.N = densityColOf m c :=
  (dats m 0 c).arrAt_eq_of_cover 16 (densityColOf m c) (fun t _ => density_flushed m c t) density_cover

end Cert.KernelIdeal.Blocks

end
-- ==== Proof.KernelRun.lean ====
/-
  The kernel program's run, read.

  After the kernel has run over its 128 points the colour array holds the colour of every row, and the density column
  the density of every row. One operation follows the kernel: the [2097152, 1] column is listed as a vector of 2097152
  entries, entry r being the column's entry (r, 0): the density of row r. Every weakly fair execution of the program ends
  with those two results and with all sixteen argument arrays as they were.
-/
import proofs.«177068_j11587821765175_2_alg».proof.Proof.KernelBlocks
import Idealize.ShloMosaic.Lib.StableHlo.Run

set_option maxRecDepth 16384

noncomputable section

namespace Cert.KernelIdeal.Blocks

open Cert.KernelIdeal Cert.KernelIdeal.Gen Cert.KernelIdeal.Rows Cert.RowModel
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The density of every row of the arguments as launched. -/
abbrev densityOf (c : Dev nD) : S2097152.Idx → Ideal .f32 :=
  densityArr (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- After the one operation that follows the kernel, the second result is the density of every row. -/
theorem density_result (c : Dev nD) :
    Pipeline.afterTail₀ cfgs (dats m) 0 (V0 m) [hostOps1] c main_v0_1 = densityOf m c := by
  unfold Pipeline.afterTail₀
  show StableHlo.after hostOps1 _ (Proc.devRef .tc main_v0_1) = _
  after_results
  rw [Pipeline.withArrays_arr spec0 launch0.win.arr_inj c _ _ 16, density_final]
  funext i
  obtain ⟨p, rfl⟩ : ∃ p : Fin 2097152, i = ix1 p := ⟨i 0, eq_ix1 i⟩
  exact col_as_vec_at (densityColOf m c) _ p

set_option maxHeartbeats 1600000 in
/-- Every weakly fair execution of the kernel program ends with the colour of every row in its first result, the density
    of every row in its second, and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v0_0) = colourOf m c
      ∧ r.2.mem ((c.tc : Thread nD τ).loc main_v0_1) = densityOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).1 15).trans (colour_final m c),
      ((h c).2 main_v0_1 (Pipeline.mem_restRefs_of main_v0_1 (by decide) (by decide))).trans (density_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).1 9).trans (((dats m 0 c).arrAt_in 9 rfl _).trans ((A_eq m c 9).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c)))⟩) (run_main m ρ)

end Cert.KernelIdeal.Blocks

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibExpLog.lean ====
/-
  GENERAL lemmas on the exponential, the logarithm and the logistic function of the extended reals, with the exact
  ("ideal") float operations. Nothing here mentions a program.

  * log_exp: log (exp x) = x for EVERY extended real x — exp sends -inf to 0 and log sends 0 back to -inf, +inf is fixed
    by both, and on a real number it is the real identity. (The other composition, exp (log x) = x, fails below 0.)
  * add_sub_cancel_isR: (a + b) - b = a when a and b are real numbers (with an infinite b the difference is a junk value).
  * logistic_spelled: 1 / (1 + exp (-x)), the 1 written as its f32 word and the quotient the extended reals' quotient, is
    the logistic function at every x, the infinities included.
  It imports LibMoments.lean of the same directory (the predicate "is a real number" and the f32 word of 1), so copy the two
  together.
-/
import Idealize.ShloMosaic.PureOps.Ideal
import proofs.«177068_j11587821765175_2_alg».proof.Proof.LibMoments

noncomputable section

namespace Cert.LibExpLog

open Idealize.ShloMosaic Cert.LibMoments

/-- The logarithm undoes the exponential on all of the extended reals. -/
theorem log_exp (x : EReal) : Ideal.log (Ideal.exp x) = x := by
  induction x using EReal.rec with
  | bot => rw [Ideal.exp_bot, ← EReal.coe_zero, Ideal.log_coe, if_pos le_rfl]
  | coe r => rw [Ideal.exp_coe, Ideal.log_coe, if_neg (not_le.mpr (Real.exp_pos r)), Real.log_exp]
  | top => rw [Ideal.exp_top, Ideal.log_top]

/-- Adding and then subtracting a real number leaves a real number as it was. -/
theorem add_sub_cancel_isR {a b : EReal} (ha : IsR a) (hb : IsR b) : a + b - b = a := by
  obtain ⟨x, rfl⟩ := ha
  obtain ⟨y, rfl⟩ := hb
  rw [← EReal.coe_add, ← EReal.coe_sub, add_sub_cancel_right]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LibExpLog

end
-- ==== Proof.RefRows.lean ====
/-
  The reference program, read one row at a time.

  The reference program computes its two results by whole-array steps: matrix products, a bias laid along the rows, the
  rectifier taken against an array of zeros, the Euclidean length of every viewing direction, a division, two arrays
  joined along their columns, and the logistic function written out as 1 / (1 + exp (-x)). Here every step is read at one
  entry (row p, column q) and identified with the network of RowModel.lean applied to row p:

  * density net: after the first rectifier, entry (p, q) is output q of the first rectified affine layer of row p of the
    encoded coordinates; after the second rectifier it is output q of the second layer of that; the third layer has a
    single output column, so its entry (p, 0), rectified, is the density of row p; the result drops that column axis of
    extent one, so entry p of the result is entry (p, 0).
  * colour net: the features are a rectified affine layer of row p; row p of the directions is divided by the larger of its
    length and the small constant, where the sum of the three squares starts from the single-precision zero, which is the
    number zero and adds nothing; entry (p, k) of the joined array is feature k for k < 64 and direction number k - 64 for
    64 <= k < 67; then come two rectified affine layers and an affine layer with three outputs; and 1 / (1 + exp (-x)),
    with 1 the single-precision one, is the logistic function at every extended real, the infinities included.

  Every lemma reads the steps from the outermost inwards. A matrix product at (p, q) is the sum over k of the left factor
  at (p, k) times the right factor at (k, q); a bias laid along the rows is, at (p, q), the bias at q. The only facts of
  arithmetic used are 0 + s = s and the spelling of the logistic function, so no entry needs to be finite. The last two
  theorems state the two results as whole arrays.
-/
import proofs.«177068_j11587821765175_2_alg».proof.Proof.Gen.ReferenceIdeal.Read
import proofs.«177068_j11587821765175_2_alg».proof.Proof.WholeArrays
import proofs.«177068_j11587821765175_2_alg».proof.Proof.LibMatmulRows
import proofs.«177068_j11587821765175_2_alg».proof.Proof.LibExpLog

noncomputable section

namespace Cert.RefRows

open Cert.ReferenceIdeal Cert.ReferenceIdeal.Read Cert.RowModel Cert.LibMatmulRows
open Idealize.ShloMosaic Idealize.ShloMosaic.ValueIdx
open scoped BigOperators

/-- An f32 array of shape s with exact entries: a function from the shape's indices to the extended reals. -/
abbrev Arr (s : Shape) : Type := (⟨s, .f32⟩ : BufTy).Contents (Elt Ideal)

/-! ## The density net -/

/-- Density net, first layer: the product of the encoded coordinates with the first weight matrix, plus the bias laid
    along the rows, rectified, is at (p, q) output q of the rectified affine layer of row p. -/
theorem dens1 (x0 : Arr S2097152x32) (x2 : Arr S32x64) (x3 : Arr S64) (p : Fin 2097152) (q : Fin 64) :
    val_main_v4 (F := Ideal) x0 x2 x3 (ix2 p q) = layer (rowOf x0 p) (matOf x2) (vecOf x3) q := by
  rw [val_main_v4_apply, val_main_v3_apply, val_main_v0_apply, val_main_v2_apply, val_main_v1_apply,
    val_main_call0_v0_apply, val_main_call0_cst_apply]
  have hl : ∀ k : Fin 32, lidx_main_v0 (ix2 p q) k = ix2 p k := fun k => idx2_ext _ _ rfl rfl
  have hr : ∀ k : Fin 32, ridx_main_v0 (ix2 p q) k = ix2 k q := fun k => idx2_ext _ _ rfl rfl
  have hb : idx_main_v1 (idx_main_v2 (ix2 p q)) = ix1 q := funext fun a => Fin.ext (by match a with | ⟨0, _⟩ => rfl)
  simp only [hl, hr, hb]
  rfl

/-- Density net, second layer: the same three steps applied to the first layer's array give, at (p, q), output q of the
    second rectified affine layer of row p. -/
theorem dens2 (x0 : Arr S2097152x32) (x2 : Arr S32x64) (x3 : Arr S64) (x4 : Arr S64x64) (x5 : Arr S64) (p : Fin 2097152) (q : Fin 64) :
    val_main_v9 (F := Ideal) x0 x2 x3 x4 x5 (ix2 p q)
      = layer (layer (rowOf x0 p) (matOf x2) (vecOf x3)) (matOf x4) (vecOf x5) q := by
  rw [val_main_v9_apply, val_main_v8_apply, val_main_v5_apply, val_main_v7_apply, val_main_v6_apply,
    val_main_call1_v0_apply, val_main_call1_cst_apply]
  have hl : ∀ k : Fin 64, lidx_main_v5 (ix2 p q) k = ix2 p k := fun k => idx2_ext _ _ rfl rfl
  have hr : ∀ k : Fin 64, ridx_main_v5 (ix2 p q) k = ix2 k q := fun k => idx2_ext _ _ rfl rfl
  have hb : idx_main_v6 (idx_main_v7 (ix2 p q)) = ix1 q := funext fun a => Fin.ext (by match a with | ⟨0, _⟩ => rfl)
  simp only [hl, hr, hb, dens1]
  rfl

/-- Density net, third layer: the weight matrix has one column and the bias one entry, so the array has the single column
    0, and the bias is stretched along both axes; its entry (p, 0), rectified, is the density of row p. -/
theorem dens3 (x0 : Arr S2097152x32) (x2 : Arr S32x64) (x3 : Arr S64) (x4 : Arr S64x64) (x5 : Arr S64) (x6 : Arr S64x1) (x7 : Arr S1) (p : Fin 2097152) :
    val_main_v14 (F := Ideal) x0 x2 x3 x4 x5 x6 x7 (ix2 p (0 : Fin 1))
      = density (rowOf x0 p) (matOf x2) (vecOf x3) (matOf x4) (vecOf x5) (matOf x6) (vecOf x7) := by
  rw [val_main_v14_apply, val_main_v13_apply, val_main_v10_apply, val_main_v12_apply, val_main_v11_apply,
    val_main_call2_v0_apply, val_main_call2_cst_apply]
  have hl : ∀ k : Fin 64, lidx_main_v10 (ix2 p (0 : Fin 1)) k = ix2 p k := fun k => idx2_ext _ _ rfl rfl
  have hr : ∀ k : Fin 64, ridx_main_v10 (ix2 p (0 : Fin 1)) k = ix2 k (0 : Fin 1) := fun k => idx2_ext _ _ rfl rfl
  have hb : idx_main_v11 (idx_main_v12 (ix2 p (0 : Fin 1))) = ix1 (0 : Fin 1) :=
    funext fun a => Fin.ext (by match a with | ⟨0, _⟩ => rfl)
  simp only [hl, hr, hb, dens2]
  rfl

/-! ## The colour net -/

/-- Colour net, the features: at (p, q), output q of the rectified affine layer of row p of the encoded coordinates. -/
theorem feat (x0 : Arr S2097152x32) (x8 : Arr S32x64) (x9 : Arr S64) (p : Fin 2097152) (q : Fin 64) :
    val_main_v19 (F := Ideal) x0 x8 x9 (ix2 p q) = layer (rowOf x0 p) (matOf x8) (vecOf x9) q := by
  rw [val_main_v19_apply, val_main_v18_apply, val_main_v15_apply, val_main_v17_apply, val_main_v16_apply,
    val_main_call3_v0_apply, val_main_call3_cst_apply]
  have hl : ∀ k : Fin 32, lidx_main_v15 (ix2 p q) k = ix2 p k := fun k => idx2_ext _ _ rfl rfl
  have hr : ∀ k : Fin 32, ridx_main_v15 (ix2 p q) k = ix2 k q := fun k => idx2_ext _ _ rfl rfl
  have hb : idx_main_v16 (idx_main_v17 (ix2 p q)) = ix1 q := funext fun a => Fin.ext (by match a with | ⟨0, _⟩ => rfl)
  simp only [hl, hr, hb]
  rfl

/-- The directions made unit: entry (p, a) is direction number a of row p divided by the larger of the row's Euclidean
    length and the small constant. The length is the square root of the sum over the row of the squares, started from
    the single-precision zero, which is 0 and drops out; the column of lengths is then stretched over the three columns. -/
theorem dir_at (x1 : Arr S2097152x3) (p : Fin 2097152) (a : Fin 3) :
    val_main_v24 (F := Ideal) x1 (ix2 p a) = unitDir (rowOf x1 p) a := by
  rw [val_main_v24_apply, val_main_v23_apply, val_main_v22_apply, val_main_v20_apply, val_main_call4_v2_apply,
    val_main_call4_v1_apply, val_main_v21_apply, val_main_cst_apply, val_main_call4_cst_apply]
  have hk : ∀ k : Fin 3, idx_main_call4_v1 (idx_main_call4_v2 (idx_main_v23 (ix2 p a))) k = ix2 p k :=
    fun k => idx2_ext _ _ rfl rfl
  simp only [hk, val_main_call4_v0_apply, Ideal.ofBits_def, Ideal.ofBits_zero_f32, zero_add]
  rfl

/-- The features and the unit directions joined along the columns: entry (p, k) is feature k of row p when k < 64 (the
    first piece, nothing before it) and direction number k - 64 of row p otherwise (the second piece, after 64 columns). -/
theorem cat_at (x0 : Arr S2097152x32) (x1 : Arr S2097152x3) (x8 : Arr S32x64) (x9 : Arr S64) (p : Fin 2097152) (k : Fin 67) :
    val_main_v25 (F := Ideal) x0 x1 x8 x9 (ix2 p k)
      = joined (layer (rowOf x0 p) (matOf x8) (vecOf x9)) (unitDir (rowOf x1 p)) k := by
  unfold val_main_v25 joined
  by_cases h : k.val < 64
  · rw [dif_pos h]
    refine (concatenate_apply_piece (1 : Fin S2097152x67.rank) _ _ (ix2 p k) 0 (by show (0 : ℕ) < 2; omega) S2097152x64 _ rfl rfl 0 rfl
      (ix2 p (⟨k.val, h⟩ : Fin 64)) ?_ ?_).trans (feat x0 x8 x9 p ⟨k.val, h⟩)
    · intro b hb
      match b with
      | ⟨0, _⟩ => rfl
      | ⟨1, _⟩ => exact absurd rfl hb
    · show 0 + k.val = k.val
      omega
  · rw [dif_neg h]
    have hk := k.isLt
    refine (concatenate_apply_piece (1 : Fin S2097152x67.rank) _ _ (ix2 p k) 1 (by show (1 : ℕ) < 2; omega) S2097152x3 _ rfl rfl 64 rfl
      (ix2 p (⟨k.val - 64, by omega⟩ : Fin 3)) ?_ ?_).trans (dir_at x1 p ⟨k.val - 64, by omega⟩)
    · intro b hb
      match b with
      | ⟨0, _⟩ => rfl
      | ⟨1, _⟩ => exact absurd rfl hb
    · show 64 + (k.val - 64) = k.val
      omega

/-- Colour net, first layer: a 67-term sum over the joined row, plus the bias, rectified. -/
theorem col1 (x0 : Arr S2097152x32) (x1 : Arr S2097152x3) (x8 : Arr S32x64) (x9 : Arr S64) (x10 : Arr S67x64) (x11 : Arr S64) (p : Fin 2097152) (q : Fin 64) :
    val_main_v30 (F := Ideal) x0 x1 x8 x9 x10 x11 (ix2 p q)
      = layer (joined (layer (rowOf x0 p) (matOf x8) (vecOf x9)) (unitDir (rowOf x1 p))) (matOf x10) (vecOf x11) q := by
  rw [val_main_v30_apply, val_main_v29_apply, val_main_v26_apply, val_main_v28_apply, val_main_v27_apply,
    val_main_call5_v0_apply, val_main_call5_cst_apply]
  have hl : ∀ k : Fin 67, lidx_main_v26 (ix2 p q) k = ix2 p k := fun k => idx2_ext _ _ rfl rfl
  have hr : ∀ k : Fin 67, ridx_main_v26 (ix2 p q) k = ix2 k q := fun k => idx2_ext _ _ rfl rfl
  have hb : idx_main_v27 (idx_main_v28 (ix2 p q)) = ix1 q := funext fun a => Fin.ext (by match a with | ⟨0, _⟩ => rfl)
  simp only [hl, hr, hb, cat_at]
  rfl

/-- Colour net, second layer. -/
theorem col2 (x0 : Arr S2097152x32) (x1 : Arr S2097152x3) (x8 : Arr S32x64) (x9 : Arr S64) (x10 : Arr S67x64) (x11 : Arr S64) (x12 : Arr S64x64) (x13 : Arr S64) (p : Fin 2097152) (q : Fin 64) :
    val_main_v35 (F := Ideal) x0 x1 x8 x9 x10 x11 x12 x13 (ix2 p q)
      = layer (layer (joined (layer (rowOf x0 p) (matOf x8) (vecOf x9)) (unitDir (rowOf x1 p))) (matOf x10) (vecOf x11))
          (matOf x12) (vecOf x13) q := by
  rw [val_main_v35_apply, val_main_v34_apply, val_main_v31_apply, val_main_v33_apply, val_main_v32_apply,
    val_main_call6_v0_apply, val_main_call6_cst_apply]
  have hl : ∀ k : Fin 64, lidx_main_v31 (ix2 p q) k = ix2 p k := fun k => idx2_ext _ _ rfl rfl
  have hr : ∀ k : Fin 64, ridx_main_v31 (ix2 p q) k = ix2 k q := fun k => idx2_ext _ _ rfl rfl
  have hb : idx_main_v32 (idx_main_v33 (ix2 p q)) = ix1 q := funext fun a => Fin.ext (by match a with | ⟨0, _⟩ => rfl)
  simp only [hl, hr, hb, col1]
  rfl

/-- Colour net, third layer: affine with three outputs, not rectified. -/
theorem col3 (x0 : Arr S2097152x32) (x1 : Arr S2097152x3) (x8 : Arr S32x64) (x9 : Arr S64) (x10 : Arr S67x64) (x11 : Arr S64) (x12 : Arr S64x64) (x13 : Arr S64) (x14 : Arr S64x3) (x15 : Arr S3) (p : Fin 2097152) (j : Fin 3) :
    val_main_v39 (F := Ideal) x0 x1 x8 x9 x10 x11 x12 x13 x14 x15 (ix2 p j)
      = lin (layer (layer (joined (layer (rowOf x0 p) (matOf x8) (vecOf x9)) (unitDir (rowOf x1 p))) (matOf x10) (vecOf x11))
          (matOf x12) (vecOf x13)) (matOf x14) (vecOf x15) j := by
  rw [val_main_v39_apply, val_main_v36_apply, val_main_v38_apply, val_main_v37_apply]
  have hl : ∀ k : Fin 64, lidx_main_v36 (ix2 p j) k = ix2 p k := fun k => idx2_ext _ _ rfl rfl
  have hr : ∀ k : Fin 64, ridx_main_v36 (ix2 p j) k = ix2 k j := fun k => idx2_ext _ _ rfl rfl
  have hb : idx_main_v37 (idx_main_v38 (ix2 p j)) = ix1 j := funext fun a => Fin.ext (by match a with | ⟨0, _⟩ => rfl)
  simp only [hl, hr, hb, col2]
  rfl

/-- The colour: 1 / (1 + exp (-x)) of the third layer's output, both ones the single-precision one, is the logistic
    function of it. -/
theorem colour_at (x0 : Arr S2097152x32) (x1 : Arr S2097152x3) (x8 : Arr S32x64) (x9 : Arr S64) (x10 : Arr S67x64) (x11 : Arr S64) (x12 : Arr S64x64) (x13 : Arr S64) (x14 : Arr S64x3) (x15 : Arr S3) (p : Fin 2097152) (j : Fin 3) :
    val_main_v45 (F := Ideal) x0 x1 x8 x9 x10 x11 x12 x13 x14 x15 (ix2 p j)
      = colour (rowOf x0 p) (rowOf x1 p) (matOf x8) (vecOf x9) (matOf x10) (vecOf x11) (matOf x12) (vecOf x13)
          (matOf x14) (vecOf x15) j := by
  rw [val_main_v45_apply, val_main_v44_apply, val_main_cst_1_apply, val_main_v43_apply, val_main_v42_apply,
    val_main_cst_0_apply, val_main_v41_apply, val_main_v40_apply, col3]
  exact Cert.LibExpLog.logistic_spelled _

/-! ## The two results as whole arrays -/

/-- The reference program's colour result is the colour of every row. -/
theorem colour_eq (x0 : (⟨S2097152x32, .f32⟩ : BufTy).Contents (Elt Ideal)) (x1 : (⟨S2097152x3, .f32⟩ : BufTy).Contents (Elt Ideal)) (x8 : (⟨S32x64, .f32⟩ : BufTy).Contents (Elt Ideal)) (x9 : (⟨S64, .f32⟩ : BufTy).Contents (Elt Ideal)) (x10 : (⟨S67x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x3, .f32⟩ : BufTy).Contents (Elt Ideal)) (x15 : (⟨S3, .f32⟩ : BufTy).Contents (Elt Ideal)) :
    Cert.ReferenceIdeal.Read.val_main_v45 (F := Ideal) x0 x1 x8 x9 x10 x11 x12 x13 x14 x15 = Cert.RowModel.colourArr x0 x1 x8 x9 x10 x11 x12 x13 x14 x15 := by
  funext i
  obtain ⟨p, j, rfl⟩ : ∃ (p : Fin 2097152) (j : Fin 3), i = ix2 p j := ⟨i 0, i 1, eq_ix2 i⟩
  rw [colour_at]
  rfl

/-- The reference program's density result is the density of every row: dropping the column axis of extent one sends
    entry p to entry (p / 1, 0) = (p, 0). -/
theorem density_eq (x0 : (⟨S2097152x32, .f32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) :
    Cert.ReferenceIdeal.Read.val_main_v46 (F := Ideal) x0 x2 x3 x4 x5 x6 x7 = Cert.RowModel.densityArr x0 x2 x3 x4 x5 x6 x7 := by
  funext i
  obtain ⟨p, rfl⟩ : ∃ p : Fin 2097152, i = ix1 p := ⟨i 0, eq_ix1 i⟩
  rw [val_main_v46_apply]
  have hi : idx_main_v46 (ix1 p) = ix2 p (0 : Fin 1) := idx2_ext _ _ (Nat.div_one _) rfl
  rw [hi, dens3]
  rfl

end Cert.RefRows

end
-- ==== Proof.lean ====
/-
  A small radiance-field network on 2^21 rows, as one fused kernel and as plain array operations: the two programs compute
  the same extended reals.

  For every row, from its 32 encoded coordinates, its viewing direction and fixed weights, both programs compute a density
  (two rectified affine layers, a third affine layer with one output, rectified) and a colour (a rectified affine layer to
  64 features; the direction divided by the larger of its length and a small constant; features and direction through two
  rectified affine layers and a third with three outputs; the logistic function). RowModel.lean states that network once,
  a row at a time.

  The array program applies it to whole arrays, one operation after another (RefRows.lean reads those operations at a
  row). The kernel works on blocks of 16384 rows and arranges the arithmetic differently: one 128-column first layer
  shared by the two nets; the 67-term first colour layer as a 64-term product, the bias, and three direction terms added
  in turn; the layers with one and three outputs as multiplications entry by entry followed by sums over the lanes
  (KernelProducts, KernelDensity, KernelColour, KernelOutputs read the kernel's body at a row; KernelBlocks goes from blocks
  to whole arrays; KernelRun reads the program's run). Exact arithmetic makes the arrangements agree: sums of extended
  reals may be regrouped and reordered freely, also at the infinities, so nothing here needs the inputs to be finite.

  The three frame claims are the generated frame runs (the array program's with its results dropped); the kernel and its
  exact reading are one text, so there is nothing to preserve.
-/
import proofs.«177068_j11587821765175_2_alg».proof.Defs
import proofs.«177068_j11587821765175_2_alg».proof.Proof.Gen.Kernel
import proofs.«177068_j11587821765175_2_alg».proof.Proof.Gen.Kernel.Skeleton
import proofs.«177068_j11587821765175_2_alg».proof.Proof.Gen.Kernel.Launch
import proofs.«177068_j11587821765175_2_alg».proof.Proof.Gen.Kernel.Points
import proofs.«177068_j11587821765175_2_alg».proof.Proof.Gen.Kernel.Frame
import proofs.«177068_j11587821765175_2_alg».proof.Proof.Gen.KernelIdeal
import proofs.«177068_j11587821765175_2_alg».proof.Proof.Gen.KernelIdeal.Skeleton
import proofs.«177068_j11587821765175_2_alg».proof.Proof.Gen.KernelIdeal.Launch
import proofs.«177068_j11587821765175_2_alg».proof.Proof.Gen.KernelIdeal.Points
import proofs.«177068_j11587821765175_2_alg».proof.Proof.Gen.KernelIdeal.Frame
import proofs.«177068_j11587821765175_2_alg».proof.Proof.Gen.ReferenceIdeal
import proofs.«177068_j11587821765175_2_alg».proof.Proof.Gen.Pre_finite_inputs
import proofs.«177068_j11587821765175_2_alg».proof.Proof.Gen.ReferenceIdeal.Run
import proofs.«177068_j11587821765175_2_alg».proof.Proof.Gen.ReferenceIdeal.Read
import proofs.«177068_j11587821765175_2_alg».proof.Proof.KernelRun
import proofs.«177068_j11587821765175_2_alg».proof.Proof.RefRows
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its exact reading. -/
theorem frame_ideal : Cert.frame_KernelIdeal := fun m ρ _ => Cert.KernelIdeal.Gen.frame m ρ

/-- The array program runs and leaves its arguments as they were: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the sixteen arguments both programs end with the colour of every row as their first
    result and the density of every row as their second. -/
theorem algebraic : Cert.algebraic_KernelIdeal_ReferenceIdeal := by
  intro m ρ m' ρ' _ hagree
  refine ⟨fun c => Cert.KernelIdeal.Blocks.colourOf m c, fun c => Cert.KernelIdeal.Blocks.densityOf m c,
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6, e7, e8, e9, e10, e11, e12, e13, e14, e15⟩ := hagree c
    rw [(h c).1, Cert.ReferenceIdeal.Read.val_main_v45_eq, Cert.RefRows.colour_eq, e0, e1, e8, e9, e10, e11, e12, e13, e14, e15]
  · obtain ⟨e0, e1, e2, e3, e4, e5, e6, e7, e8, e9, e10, e11, e12, e13, e14, e15⟩ := hagree c
    rw [(h c).2.1, Cert.ReferenceIdeal.Read.val_main_v46_eq, Cert.RefRows.density_eq, e0, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
